-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v131) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg5 : FVec F S128x128 .f32) (main_arg6 : FVec F S128 .f32) (main_arg7 : FVec F S128x128 .f32) (main_arg8 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_v33

def fn {F : FTy → Type} [FloatOps F] (main_arg0 : FVec F S100000x128 .f32) (main_arg1 : IVec S2x1600000 32) (main_arg2 : FVec F S1600000 .f32) (main_arg3 : FVec F S128x128 .f32) (main_arg4 : FVec F S128 .f32) (main_arg5 : FVec F S128x128 .f32) (main_arg6 : FVec F S128 .f32) (main_arg7 : FVec F S128x128 .f32) (main_arg8 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S10000x128 : Shape := ⟨2, ![10000, 128]⟩
abbrev S1700000x128 : Shape := ⟨2, ![1700000, 128]⟩
abbrev S1x128 : Shape := ⟨2, ![1, 128]⟩

abbrev nBuf : Space → Nat
  | .hbm => 106
  | .vmem => 30
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S100000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S1x1600000, .i32⟩
  | .hbm, ⟨14, _⟩ => ⟨S1600000, .i32⟩
  | .hbm, ⟨15, _⟩ => ⟨S1700000, .i32⟩
  | .hbm, ⟨16, _⟩ => ⟨S_, .f32⟩
  | .hbm, ⟨17, _⟩ => ⟨S100000, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S1700000, .f32⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000, .f32⟩
  | .hbm, ⟨50, _⟩ => ⟨S1700000, .f32⟩
  | .hbm, ⟨51, _⟩ => ⟨S1700000x1, .f32⟩
  | .hbm, ⟨52, _⟩ => ⟨S100000x128, .f32⟩
  | .hbm, ⟨53, _⟩ => ⟨S_, .i32⟩
  | .hbm, ⟨54, _⟩ => ⟨S1700000, .i32⟩
  | .hbm, ⟨55, _⟩ => ⟨S1700000, .i1⟩
  | .hbm, ⟨56, _⟩ => ⟨S_, .i32⟩
  | .hbm, ⟨57, _⟩ => ⟨S1700000, .i32⟩
  | .hbm, ⟨58, _⟩ => ⟨S1700000, .i32⟩
  | .hbm, ⟨59, _⟩ => ⟨S1700000, .i32⟩
  | .hbm, ⟨60, _⟩ => ⟨S1700000x1, .i32⟩
  | .hbm, ⟨61, _⟩ => ⟨S1700000x128, .f32⟩
  | .hbm, ⟨62, _⟩ => ⟨S1700000x128, .f32⟩
  | .hbm, ⟨63, _⟩ => ⟨S1700000x128, .f32⟩
  | .hbm, ⟨64, _⟩ => ⟨S_, .f32⟩
  | .hbm, ⟨65, _⟩ => ⟨S100000x128, .f32⟩
  | .hbm, ⟨66, _⟩ => ⟨S1700000x1, .i32⟩
  | .hbm, ⟨67, _⟩ => ⟨S100000x128, .f32⟩
  | .hbm, ⟨68, _⟩ => ⟨S1x128, .f32⟩
  | .hbm, ⟨69, _⟩ => ⟨S100000x128, .f32⟩
  | .hbm, ⟨70, _⟩ => ⟨S100000x128, .f32⟩
  | .hbm, ⟨71, _⟩ => ⟨S_, .i32⟩
  | .hbm, ⟨72, _⟩ => ⟨S1700000, .i32⟩
  | .hbm, ⟨73, _⟩ => ⟨S1700000, .i1⟩
  | .hbm, ⟨74, _⟩ => ⟨S_, .i32⟩
  | .hbm, ⟨75, _⟩ => ⟨S1700000, .i32⟩
  | .hbm, ⟨76, _⟩ => ⟨S1700000, .i32⟩
  | .hbm, ⟨77, _⟩ => ⟨S1700000, .i32⟩
  | .hbm, ⟨78, _⟩ => ⟨S1700000x1, .i32⟩
  | .hbm, ⟨79, _⟩ => ⟨S1700000x128, .f32⟩
  | .hbm, ⟨80, _⟩ => ⟨S1700000x128, .f32⟩
  | .hbm, ⟨81, _⟩ => ⟨S1700000x128, .f32⟩
  | .hbm, ⟨82, _⟩ => ⟨S_, .f32⟩
  | .hbm, ⟨83, _⟩ => ⟨S100000x128, .f32⟩
  | .hbm, ⟨84, _⟩ => ⟨S1700000x1, .i32⟩
  | .hbm, ⟨85, _⟩ => ⟨S100000x128, .f32⟩
  | .hbm, ⟨86, _⟩ => ⟨S1x128, .f32⟩
  | .hbm, ⟨87, _⟩ => ⟨S100000x128, .f32⟩
  | .hbm, ⟨88, _⟩ => ⟨S100000x128, .f32⟩
  | .hbm, ⟨89, _⟩ => ⟨S_, .i32⟩
  | .hbm, ⟨90, _⟩ => ⟨S1700000, .i32⟩
  | .hbm, ⟨91, _⟩ => ⟨S1700000, .i1⟩
  | .hbm, ⟨92, _⟩ => ⟨S_, .i32⟩
  | .hbm, ⟨93, _⟩ => ⟨S1700000, .i32⟩
  | .hbm, ⟨94, _⟩ => ⟨S1700000, .i32⟩
  | .hbm, ⟨95, _⟩ => ⟨S1700000, .i32⟩
  | .hbm, ⟨96, _⟩ => ⟨S1700000x1, .i32⟩
  | .hbm, ⟨97, _⟩ => ⟨S1700000x128, .f32⟩
  | .hbm, ⟨98, _⟩ => ⟨S1700000x128, .f32⟩
  | .hbm, ⟨99, _⟩ => ⟨S1700000x128, .f32⟩
  | .hbm, ⟨100, _⟩ => ⟨S_, .f32⟩
  | .hbm, ⟨101, _⟩ => ⟨S100000x128, .f32⟩
  | .hbm, ⟨102, _⟩ => ⟨S1700000x1, .i32⟩
  | .hbm, ⟨103, _⟩ => ⟨S100000x128, .f32⟩
  | .hbm, ⟨104, _⟩ => ⟨S1x128, .f32⟩
  | .hbm, ⟨105, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S128x128, .f32⟩
  | .local _ .vmem, ⟨13, _⟩ => ⟨S10000x128, .f32⟩
  | .local _ .vmem, ⟨14, _⟩ => ⟨S10000x128, .f32⟩
  | .local _ .vmem, ⟨15, _⟩ => ⟨S10000x128, .f32⟩
  | .local _ .vmem, ⟨16, _⟩ => ⟨S10000x128, .f32⟩
  | .local _ .vmem, ⟨17, _⟩ => ⟨S1x128, .f32⟩
  | .local _ .vmem, ⟨18, _⟩ => ⟨S10000x128, .f32⟩
  | .local _ .vmem, ⟨19, _⟩ => ⟨S10000x128, .f32⟩
  | .local _ .vmem, ⟨20, _⟩ => ⟨S10000x128, .f32⟩
  | .local _ .vmem, ⟨21, _⟩ => ⟨S10000x128, .f32⟩
  | .local _ .vmem, ⟨22, _⟩ => ⟨S128x128, .f32⟩
  | .local _ .vmem, ⟨23, _⟩ => ⟨S10000x128, .f32⟩
  | .local _ .vmem, ⟨24, _⟩ => ⟨S10000x128, .f32⟩
  | .local _ .vmem, ⟨25, _⟩ => ⟨S10000x128, .f32⟩
  | .local _ .vmem, ⟨26, _⟩ => ⟨S10000x128, .f32⟩
  | .local _ .vmem, ⟨27, _⟩ => ⟨S1x128, .f32⟩
  | .local _ .vmem, ⟨28, _⟩ => ⟨S10000x128, .f32⟩
  | .local _ .vmem, ⟨29, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_4 : Ref sig .tc := ⟨.hbm, 41, rfl⟩
abbrev main_v24 : Ref sig .tc := ⟨.hbm, 42, rfl⟩
abbrev main_v25 : Ref sig .tc := ⟨.hbm, 43, rfl⟩
abbrev main_c_5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c_6 : Ref sig .tc := ⟨.hbm, 53, rfl⟩
abbrev main_v34 : Ref sig .tc := ⟨.hbm, 54, rfl⟩
abbrev main_v35 : Ref sig .tc := ⟨.hbm, 55, rfl⟩
abbrev main_c_7 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_c_9 : Ref sig .tc := ⟨.hbm, 71, rfl⟩
abbrev main_v49 : Ref sig .tc := ⟨.hbm, 72, rfl⟩
abbrev main_v50 : Ref sig .tc := ⟨.hbm, 73, rfl⟩
abbrev main_c_10 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_11 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_c_12 : Ref sig .tc := ⟨.hbm, 89, rfl⟩
abbrev main_v64 : Ref sig .tc := ⟨.hbm, 90, rfl⟩
abbrev main_v65 : Ref sig .tc := ⟨.hbm, 91, rfl⟩
abbrev main_c_13 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_cst_14 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x128_S10000x128_1_0_0_1_n_n_wf : DotDims.WF S10000x128 S128x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .f32 = 32 ∨ (Rect.block (s := S100000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S100000x128.size a
  hwx2_2 : ∀ i : grid2.Coords, EltTy.bits .f32 = 32 ∨ (Rect.block (s := S100000x128) S10000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x128.size a ≤ S100000x128.size a
  hwx3_2 : ∀ i : grid3.Coords, EltTy.bits .f32 = 32 ∨ (Rect.block (s := S100000x128) S10000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S100000x128.size a
  hwx4_0 : ∀ i : grid4.Coords, EltTy.bits .f32 = 32 ∨ (Rect.block (s := S100000x128) S10000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x128.size a ≤ S100000x128.size a
  hwx4_2 : ∀ i : grid4.Coords, EltTy.bits .f32 = 32 ∨ (Rect.block (s := S100000x128) S10000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x128.size a ≤ S100000x128.size a
  hwx5_0 : ∀ i : grid5.Coords, EltTy.bits .f32 = 32 ∨ (Rect.block (s := S100000x128) S10000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x128.size a ≤ S100000x128.size a
  hwx5_2 : ∀ i : grid5.Coords, EltTy.bits .f32 = 32 ∨ (Rect.block (s := S100000x128) S10000x128.size (cc5_transform_2 i) (hinb5_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S10000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v60) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v61) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v62) S10000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v62) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v63) S10000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v75) S10000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v76) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v77) S10000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩

abbrev nBuf : Space → Nat
  | .hbm => 184
  | .vmem => 0
  | .smem => 0
  | _ => 0

abbrev hbmTy0_0 (i : Nat) : BufTy := match i % 128 with
  | 0 => ⟨S100000x128, .f32⟩
  | 1 => ⟨S2x1600000, .i32⟩
  | 2 => ⟨S1600000, .f32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S100000, .i32⟩
  | 10 => ⟨S1x1600000, .i32⟩
  | 11 => ⟨S1600000, .i32⟩
  | 12 => ⟨S1700000, .i32⟩
  | 13 => ⟨S1x1600000, .i32⟩
  | 14 => ⟨S1600000, .i32⟩
  | 15 => ⟨S1700000, .i32⟩
  | 16 => ⟨S_, .f32⟩
  | 17 => ⟨S100000, .f32⟩
  | 18 => ⟨S1700000, .f32⟩
  | 19 => ⟨S100000x128, .f32⟩
  | 20 => ⟨S_, .f32⟩
  | 21 => ⟨S100000, .f32⟩
  | 22 => ⟨S1700000x1, .i32⟩
  | 23 => ⟨S100000, .f32⟩
  | 24 => ⟨S_, .f32⟩
  | 25 => ⟨S100000, .f32⟩
  | 26 => ⟨S100000, .i1⟩
  | 27 => ⟨S100000, .f32⟩
  | 28 => ⟨S_, .f32⟩
  | 29 => ⟨S_, .f32⟩
  | 30 => ⟨S100000, .f32⟩
  | 31 => ⟨S100000, .f32⟩
  | 32 => ⟨S_, .i32⟩
  | 33 => ⟨S1700000, .i32⟩
  | 34 => ⟨S1700000, .i1⟩
  | 35 => ⟨S_, .i32⟩
  | 36 => ⟨S1700000, .i32⟩
  | 37 => ⟨S1700000, .i32⟩
  | 38 => ⟨S1700000, .i32⟩
  | 39 => ⟨S1700000x1, .i32⟩
  | 40 => ⟨S1700000, .f32⟩
  | 41 => ⟨S1700000, .f32⟩
  | 42 => ⟨S_, .i32⟩
  | 43 => ⟨S1700000, .i32⟩
  | 44 => ⟨S1700000, .i1⟩
  | 45 => ⟨S_, .i32⟩
  | 46 => ⟨S1700000, .i32⟩
  | 47 => ⟨S1700000, .i32⟩
  | 48 => ⟨S1700000, .i32⟩
  | 49 => ⟨S1700000x1, .i32⟩
  | 50 => ⟨S1700000, .f32⟩
  | 51 => ⟨S1700000, .f32⟩
  | 52 => ⟨S_, .i32⟩
  | 53 => ⟨S1700000, .i32⟩
  | 54 => ⟨S1700000, .i1⟩
  | 55 => ⟨S_, .i32⟩
  | 56 => ⟨S1700000, .i32⟩
  | 57 => ⟨S1700000, .i32⟩
  | 58 => ⟨S1700000, .i32⟩
  | 59 => ⟨S1700000x1, .i32⟩
  | 60 => ⟨S1700000x128, .f32⟩
  | 61 => ⟨S1700000x1, .f32⟩
  | 62 => ⟨S1700000x128, .f32⟩
  | 63 => ⟨S1700000x128, .f32⟩
  | 64 => ⟨S_, .f32⟩
  | 65 => ⟨S100000x128, .f32⟩
  | 66 => ⟨S1700000x1, .i32⟩
  | 67 => ⟨S100000x128, .f32⟩
  | 68 => ⟨S1x128, .f32⟩
  | 69 => ⟨S100000x128, .f32⟩
  | 70 => ⟨S100000x128, .f32⟩
  | 71 => ⟨S_, .f32⟩
  | 72 => ⟨S100000x128, .f32⟩
  | 73 => ⟨S100000x128, .f32⟩
  | 74 => ⟨S100000x128, .f32⟩
  | 75 => ⟨S_, .f32⟩
  | 76 => ⟨S100000, .f32⟩
  | 77 => ⟨S1700000x1, .i32⟩
  | 78 => ⟨S100000, .f32⟩
  | 79 => ⟨S_, .f32⟩
  | 80 => ⟨S100000, .f32⟩
  | 81 => ⟨S100000, .i1⟩
  | 82 => ⟨S100000, .f32⟩
  | 83 => ⟨S_, .f32⟩
  | 84 => ⟨S_, .f32⟩
  | 85 => ⟨S100000, .f32⟩
  | 86 => ⟨S100000, .f32⟩
  | 87 => ⟨S_, .i32⟩
  | 88 => ⟨S1700000, .i32⟩
  | 89 => ⟨S1700000, .i1⟩
  | 90 => ⟨S_, .i32⟩
  | 91 => ⟨S1700000, .i32⟩
  | 92 => ⟨S1700000, .i32⟩
  | 93 => ⟨S1700000, .i32⟩
  | 94 => ⟨S1700000x1, .i32⟩
  | 95 => ⟨S1700000, .f32⟩
  | 96 => ⟨S1700000, .f32⟩
  | 97 => ⟨S_, .i32⟩
  | 98 => ⟨S1700000, .i32⟩
  | 99 => ⟨S1700000, .i1⟩
  | 100 => ⟨S_, .i32⟩
  | 101 => ⟨S1700000, .i32⟩
  | 102 => ⟨S1700000, .i32⟩
  | 103 => ⟨S1700000, .i32⟩
  | 104 => ⟨S1700000x1, .i32⟩
  | 105 => ⟨S1700000, .f32⟩
  | 106 => ⟨S1700000, .f32⟩
  | 107 => ⟨S_, .i32⟩
  | 108 => ⟨S1700000, .i32⟩
  | 109 => ⟨S1700000, .i1⟩
  | 110 => ⟨S_, .i32⟩
  | 111 => ⟨S1700000, .i32⟩
  | 112 => ⟨S1700000, .i32⟩
  | 113 => ⟨S1700000, .i32⟩
  | 114 => ⟨S1700000x1, .i32⟩
  | 115 => ⟨S1700000x128, .f32⟩
  | 116 => ⟨S1700000x1, .f32⟩
  | 117 => ⟨S1700000x128, .f32⟩
  | 118 => ⟨S1700000x128, .f32⟩
  | 119 => ⟨S_, .f32⟩
  | 120 => ⟨S100000x128, .f32⟩
  | 121 => ⟨S1700000x1, .i32⟩
  | 122 => ⟨S100000x128, .f32⟩
  | 123 => ⟨S1x128, .f32⟩
  | 124 => ⟨S100000x128, .f32⟩
  | 125 => ⟨S100000x128, .f32⟩
  | 126 => ⟨S_, .f32⟩
  | 127 => ⟨S100000x128, .f32⟩
  | _ => ⟨S100000x128, .f32⟩

abbrev hbmTy0_1 (i : Nat) : BufTy := match i % 128 with
  | 0 => ⟨S100000x128, .f32⟩
  | 1 => ⟨S100000x128, .f32⟩
  | 2 => ⟨S_, .f32⟩
  | 3 => ⟨S100000, .f32⟩
  | 4 => ⟨S1700000x1, .i32⟩
  | 5 => ⟨S100000, .f32⟩
  | 6 => ⟨S_, .f32⟩
  | 7 => ⟨S100000, .f32⟩
  | 8 => ⟨S100000, .i1⟩
  | 9 => ⟨S100000, .f32⟩
  | 10 => ⟨S_, .f32⟩
  | 11 => ⟨S_, .f32⟩
  | 12 => ⟨S100000, .f32⟩
  | 13 => ⟨S100000, .f32⟩
  | 14 => ⟨S_, .i32⟩
  | 15 => ⟨S1700000, .i32⟩
  | 16 => ⟨S1700000, .i1⟩
  | 17 => ⟨S_, .i32⟩
  | 18 => ⟨S1700000, .i32⟩
  | 19 => ⟨S1700000, .i32⟩
  | 20 => ⟨S1700000, .i32⟩
  | 21 => ⟨S1700000x1, .i32⟩
  | 22 => ⟨S1700000, .f32⟩
  | 23 => ⟨S1700000, .f32⟩
  | 24 => ⟨S_, .i32⟩
  | 25 => ⟨S1700000, .i32⟩
  | 26 => ⟨S1700000, .i1⟩
  | 27 => ⟨S_, .i32⟩
  | 28 => ⟨S1700000, .i32⟩
  | 29 => ⟨S1700000, .i32⟩
  | 30 => ⟨S1700000, .i32⟩
  | 31 => ⟨S1700000x1, .i32⟩
  | 32 => ⟨S1700000, .f32⟩
  | 33 => ⟨S1700000, .f32⟩
  | 34 => ⟨S_, .i32⟩
  | 35 => ⟨S1700000, .i32⟩
  | 36 => ⟨S1700000, .i1⟩
  | 37 => ⟨S_, .i32⟩
  | 38 => ⟨S1700000, .i32⟩
  | 39 => ⟨S1700000, .i32⟩
  | 40 => ⟨S1700000, .i32⟩
  | 41 => ⟨S1700000x1, .i32⟩
  | 42 => ⟨S1700000x128, .f32⟩
  | 43 => ⟨S1700000x1, .f32⟩
  | 44 => ⟨S1700000x128, .f32⟩
  | 45 => ⟨S1700000x128, .f32⟩
  | 46 => ⟨S_, .f32⟩
  | 47 => ⟨S100000x128, .f32⟩
  | 48 => ⟨S1700000x1, .i32⟩
  | 49 => ⟨S100000x128, .f32⟩
  | 50 => ⟨S1x128, .f32⟩
  | 51 => ⟨S100000x128, .f32⟩
  | 52 => ⟨S100000x128, .f32⟩
  | 53 => ⟨S_, .f32⟩
  | 54 => ⟨S100000x128, .f32⟩
  | 55 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_3 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_4 : Ref sig .tc := ⟨.hbm, 42, rfl⟩
abbrev main_v25 : Ref sig .tc := ⟨.hbm, 43, rfl⟩
abbrev main_v26 : Ref sig .tc := ⟨.hbm, 44, rfl⟩
abbrev main_c_5 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_6 : Ref sig .tc := ⟨.hbm, 52, rfl⟩
abbrev main_v33 : Ref sig .tc := ⟨.hbm, 53, rfl⟩
abbrev main_v34 : Ref sig .tc := ⟨.hbm, 54, rfl⟩
abbrev main_c_7 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call1_cst : Ref sig .tc := ⟨.hbm, 71, rfl⟩
abbrev main_call1_v0 : Ref sig .tc := ⟨.hbm, 72, rfl⟩
abbrev main_v49 : Ref sig .tc := ⟨.hbm, 73, rfl⟩
abbrev main_v50 : Ref sig .tc := ⟨.hbm, 74, rfl⟩
abbrev main_cst_9 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_10 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_11 : Ref sig .tc := ⟨.hbm, 83, rfl⟩
abbrev main_call2_v0 : Ref sig .tc := ⟨.hbm, 84, rfl⟩
abbrev main_call2_v1 : Ref sig .tc := ⟨.hbm, 85, rfl⟩
abbrev main_v57 : Ref sig .tc := ⟨.hbm, 86, rfl⟩
abbrev main_c_12 : Ref sig .tc := ⟨.hbm, 87, rfl⟩
abbrev main_v58 : Ref sig .tc := ⟨.hbm, 88, rfl⟩
abbrev main_v59 : Ref sig .tc := ⟨.hbm, 89, rfl⟩
abbrev main_c_13 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_c_14 : Ref sig .tc := ⟨.hbm, 97, rfl⟩
abbrev main_v66 : Ref sig .tc := ⟨.hbm, 98, rfl⟩
abbrev main_v67 : Ref sig .tc := ⟨.hbm, 99, rfl⟩
abbrev main_c_15 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_c_16 : Ref sig .tc := ⟨.hbm, 107, rfl⟩
abbrev main_v74 : Ref sig .tc := ⟨.hbm, 108, rfl⟩
abbrev main_v75 : Ref sig .tc := ⟨.hbm, 109, rfl⟩
abbrev main_c_17 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_cst_18 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_call3_cst : Ref sig .tc := ⟨.hbm, 126, rfl⟩
abbrev main_call3_v0 : Ref sig .tc := ⟨.hbm, 127, rfl⟩
abbrev main_v90 : Ref sig .tc := ⟨.hbm, 128, rfl⟩
abbrev main_v91 : Ref sig .tc := ⟨.hbm, 129, rfl⟩
abbrev main_cst_19 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_cst_20 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_cst_21 : Ref sig .tc := ⟨.hbm, 138, rfl⟩
abbrev main_call4_v0 : Ref sig .tc := ⟨.hbm, 139, rfl⟩
abbrev main_call4_v1 : Ref sig .tc := ⟨.hbm, 140, rfl⟩
abbrev main_v98 : Ref sig .tc := ⟨.hbm, 141, rfl⟩
abbrev main_c_22 : Ref sig .tc := ⟨.hbm, 142, rfl⟩
abbrev main_v99 : Ref sig .tc := ⟨.hbm, 143, rfl⟩
abbrev main_v100 : Ref sig .tc := ⟨.hbm, 144, rfl⟩
abbrev main_c_23 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_c_24 : Ref sig .tc := ⟨.hbm, 152, rfl⟩
abbrev main_v107 : Ref sig .tc := ⟨.hbm, 153, rfl⟩
abbrev main_v108 : Ref sig .tc := ⟨.hbm, 154, rfl⟩
abbrev main_c_25 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_c_26 : Ref sig .tc := ⟨.hbm, 162, rfl⟩
abbrev main_v115 : Ref sig .tc := ⟨.hbm, 163, rfl⟩
abbrev main_v116 : Ref sig .tc := ⟨.hbm, 164, rfl⟩
abbrev main_c_27 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_cst_28 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_call5_cst : Ref sig .tc := ⟨.hbm, 181, rfl⟩
abbrev main_call5_v0 : Ref sig .tc := ⟨.hbm, 182, rfl⟩
abbrev main_v131 : Ref sig .tc := ⟨.hbm, 183, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.KernelRun.lean ====
/-
  The idealized kernel's whole run, ending at named contents.

  @main is twelve segments: stretches of host operations and six pipelined regions.  The buffer contents at each
  segment boundary are a fold from the launch memory: a host stretch applies its operations, a region replaces its
  output array by what its write-backs leave and keeps every other buffer.  Every weakly fair execution terminates
  without a fault, and in the final state the result buffer holds the last boundary's contents at that buffer, while
  the nine argument arrays are as launched.
-/
import proofs.«137676_j64493228916895_1_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result buffer ends at the last segment
    boundary's contents and each argument array as launched. -/
theorem run_last : θ_run defs (onTc (τ := τ) (main (F := F))) ⟨m, fun _ => 0, ρ⟩ (fun r => ∀ c : Dev nD,
      r.2.mem ((c.tc : Thread nD τ).loc main_v77) = W12 m ρ c (Proc.devRef .tc main_v77)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v77 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c)⟩)

end Cert.KernelIdeal.Whole

end
-- ==== Proof.Carried.lean ====
/-
  What the segments of @main leave untouched.

  The boundary contents are a fold: a host stretch rewrites only the buffers its operations write, and a region only
  its output array.  The edge lists with their self loops, the per-edge normalisation column and the weight and bias
  arguments are written once (or never) and read again by later segments; each lemma here walks one such buffer back
  through the segments that do not write it, to the boundary where it was produced or to the launch memory.
-/
import proofs.«137676_j64493228916895_1_alg».proof.Proof.Gen.KernelIdeal.Frame

set_option maxRecDepth 16384

noncomputable section

namespace Cert.KernelIdeal.Whole

open Idealize.ShloMosaic Idealize.ShloMosaic.TcCoe Idealize.SL.Sem
open Cert.KernelIdeal Cert.KernelIdeal.Gen

/-- No operation of the named stretch writes the buffer in the goal, so the stretch leaves it as it was: each
    operation writes one buffer, and that buffer is another one. -/
macro "keeps " ops:ident : tactic => `(tactic| (
  refine StableHlo.after_of_forall_not_mem _ _ (List.forall_iff_forall_mem.mp ?_)
  simp only [$ops:ident, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

variable {F : FTy → Type} [FloatOps F]

variable (m : (ℓ : Loc nD τ sig) → Buf (Elt F) ℓ) (ρ : Dev nD → PrngReg)

/-! ## Arguments as the first region finds them -/

/-- Argument 0 when region 0 is entered is as launched. -/
theorem entry0_arg0 (c : Dev nD) : W3 m ρ c (Proc.devRef .tc main_arg0) = m ((c : Thread nD τ).loc main_arg0) :=
  calc W3 m ρ c (Proc.devRef .tc main_arg0)
    _ = W2 m ρ c (Proc.devRef .tc main_arg0) := by keeps hostOps0_2
    _ = W1 m ρ c (Proc.devRef .tc main_arg0) := by keeps hostOps0_1
    _ = W0 m ρ c (Proc.devRef .tc main_arg0) := by keeps hostOps0
    _ = m ((c : Thread nD τ).loc main_arg0) := rfl

/-- Argument 3 when region 0 is entered is as launched. -/
theorem entry0_arg3 (c : Dev nD) : W3 m ρ c (Proc.devRef .tc main_arg3) = m ((c : Thread nD τ).loc main_arg3) :=
  calc W3 m ρ c (Proc.devRef .tc main_arg3)
    _ = W2 m ρ c (Proc.devRef .tc main_arg3) := by keeps hostOps0_2
    _ = W1 m ρ c (Proc.devRef .tc main_arg3) := by keeps hostOps0_1
    _ = W0 m ρ c (Proc.devRef .tc main_arg3) := by keeps hostOps0
    _ = m ((c : Thread nD τ).loc main_arg3) := rfl

/-- Argument 4 when region 0 is entered is as launched. -/
theorem entry0_arg4 (c : Dev nD) : W3 m ρ c (Proc.devRef .tc main_arg4) = m ((c : Thread nD τ).loc main_arg4) :=
  calc W3 m ρ c (Proc.devRef .tc main_arg4)
    _ = W2 m ρ c (Proc.devRef .tc main_arg4) := by keeps hostOps0_2
    _ = W1 m ρ c (Proc.devRef .tc main_arg4) := by keeps hostOps0_1
    _ = W0 m ρ c (Proc.devRef .tc main_arg4) := by keeps hostOps0
    _ = m ((c : Thread nD τ).loc main_arg4) := rfl

/-- Argument 5 when region 0 is entered is as launched. -/
theorem entry0_arg5 (c : Dev nD) : W3 m ρ c (Proc.devRef .tc main_arg5) = m ((c : Thread nD τ).loc main_arg5) :=
  calc W3 m ρ c (Proc.devRef .tc main_arg5)
    _ = W2 m ρ c (Proc.devRef .tc main_arg5) := by keeps hostOps0_2
    _ = W1 m ρ c (Proc.devRef .tc main_arg5) := by keeps hostOps0_1
    _ = W0 m ρ c (Proc.devRef .tc main_arg5) := by keeps hostOps0
    _ = m ((c : Thread nD τ).loc main_arg5) := rfl

/-- Argument 6 when region 0 is entered is as launched. -/
theorem entry0_arg6 (c : Dev nD) : W3 m ρ c (Proc.devRef .tc main_arg6) = m ((c : Thread nD τ).loc main_arg6) :=
  calc W3 m ρ c (Proc.devRef .tc main_arg6)
    _ = W2 m ρ c (Proc.devRef .tc main_arg6) := by keeps hostOps0_2
    _ = W1 m ρ c (Proc.devRef .tc main_arg6) := by keeps hostOps0_1
    _ = W0 m ρ c (Proc.devRef .tc main_arg6) := by keeps hostOps0
    _ = m ((c : Thread nD τ).loc main_arg6) := rfl

/-- Argument 7 when region 0 is entered is as launched. -/
theorem entry0_arg7 (c : Dev nD) : W3 m ρ c (Proc.devRef .tc main_arg7) = m ((c : Thread nD τ).loc main_arg7) :=
  calc W3 m ρ c (Proc.devRef .tc main_arg7)
    _ = W2 m ρ c (Proc.devRef .tc main_arg7) := by keeps hostOps0_2
    _ = W1 m ρ c (Proc.devRef .tc main_arg7) := by keeps hostOps0_1
    _ = W0 m ρ c (Proc.devRef .tc main_arg7) := by keeps hostOps0
    _ = m ((c : Thread nD τ).loc main_arg7) := rfl

/-- Argument 8 when region 0 is entered is as launched. -/
theorem entry0_arg8 (c : Dev nD) : W3 m ρ c (Proc.devRef .tc main_arg8) = m ((c : Thread nD τ).loc main_arg8) :=
  calc W3 m ρ c (Proc.devRef .tc main_arg8)
    _ = W2 m ρ c (Proc.devRef .tc main_arg8) := by keeps hostOps0_2
    _ = W1 m ρ c (Proc.devRef .tc main_arg8) := by keeps hostOps0_1
    _ = W0 m ρ c (Proc.devRef .tc main_arg8) := by keeps hostOps0
    _ = m ((c : Thread nD τ).loc main_arg8) := rfl

/-! ## The graph data, carried from before region 0 to each later aggregation -/

/-- Buffer v3 after region 0 is as before it. -/
theorem at4_v3 (c : Dev nD) : W4 m ρ c (Proc.devRef .tc main_v3) = W3 m ρ c (Proc.devRef .tc main_v3) :=
  calc W4 m ρ c (Proc.devRef .tc main_v3)
    _ = W3 m ρ c (Proc.devRef .tc main_v3) := W4_of_ne m ρ c main_v3 (by decide)

/-- Buffer v3 after region 2 is as before region 0. -/
theorem at7_v3 (c : Dev nD) : W7 m ρ c (Proc.devRef .tc main_v3) = W3 m ρ c (Proc.devRef .tc main_v3) :=
  calc W7 m ρ c (Proc.devRef .tc main_v3)
    _ = W6 m ρ c (Proc.devRef .tc main_v3) := W7_of_ne m ρ c main_v3 (by decide)
    _ = W5 m ρ c (Proc.devRef .tc main_v3) := W6_of_ne m ρ c main_v3 (by decide)
    _ = W4 m ρ c (Proc.devRef .tc main_v3) := by keeps hostOps1
    _ = W3 m ρ c (Proc.devRef .tc main_v3) := W4_of_ne m ρ c main_v3 (by decide)

/-- Buffer v3 after region 4 is as before region 0. -/
theorem at10_v3 (c : Dev nD) : W10 m ρ c (Proc.devRef .tc main_v3) = W3 m ρ c (Proc.devRef .tc main_v3) :=
  calc W10 m ρ c (Proc.devRef .tc main_v3)
    _ = W9 m ρ c (Proc.devRef .tc main_v3) := W10_of_ne m ρ c main_v3 (by decide)
    _ = W8 m ρ c (Proc.devRef .tc main_v3) := W9_of_ne m ρ c main_v3 (by decide)
    _ = W7 m ρ c (Proc.devRef .tc main_v3) := by keeps hostOps3
    _ = W6 m ρ c (Proc.devRef .tc main_v3) := W7_of_ne m ρ c main_v3 (by decide)
    _ = W5 m ρ c (Proc.devRef .tc main_v3) := W6_of_ne m ρ c main_v3 (by decide)
    _ = W4 m ρ c (Proc.devRef .tc main_v3) := by keeps hostOps1
    _ = W3 m ρ c (Proc.devRef .tc main_v3) := W4_of_ne m ρ c main_v3 (by decide)

/-- Buffer v6 after region 0 is as before it. -/
theorem at4_v6 (c : Dev nD) : W4 m ρ c (Proc.devRef .tc main_v6) = W3 m ρ c (Proc.devRef .tc main_v6) :=
  calc W4 m ρ c (Proc.devRef .tc main_v6)
    _ = W3 m ρ c (Proc.devRef .tc main_v6) := W4_of_ne m ρ c main_v6 (by decide)

/-- Buffer v6 after region 2 is as before region 0. -/
theorem at7_v6 (c : Dev nD) : W7 m ρ c (Proc.devRef .tc main_v6) = W3 m ρ c (Proc.devRef .tc main_v6) :=
  calc W7 m ρ c (Proc.devRef .tc main_v6)
    _ = W6 m ρ c (Proc.devRef .tc main_v6) := W7_of_ne m ρ c main_v6 (by decide)
    _ = W5 m ρ c (Proc.devRef .tc main_v6) := W6_of_ne m ρ c main_v6 (by decide)
    _ = W4 m ρ c (Proc.devRef .tc main_v6) := by keeps hostOps1
    _ = W3 m ρ c (Proc.devRef .tc main_v6) := W4_of_ne m ρ c main_v6 (by decide)

/-- Buffer v6 after region 4 is as before region 0. -/
theorem at10_v6 (c : Dev nD) : W10 m ρ c (Proc.devRef .tc main_v6) = W3 m ρ c (Proc.devRef .tc main_v6) :=
  calc W10 m ρ c (Proc.devRef .tc main_v6)
    _ = W9 m ρ c (Proc.devRef .tc main_v6) := W10_of_ne m ρ c main_v6 (by decide)
    _ = W8 m ρ c (Proc.devRef .tc main_v6) := W9_of_ne m ρ c main_v6 (by decide)
    _ = W7 m ρ c (Proc.devRef .tc main_v6) := by keeps hostOps3
    _ = W6 m ρ c (Proc.devRef .tc main_v6) := W7_of_ne m ρ c main_v6 (by decide)
    _ = W5 m ρ c (Proc.devRef .tc main_v6) := W6_of_ne m ρ c main_v6 (by decide)
    _ = W4 m ρ c (Proc.devRef .tc main_v6) := by keeps hostOps1
    _ = W3 m ρ c (Proc.devRef .tc main_v6) := W4_of_ne m ρ c main_v6 (by decide)

/-- Buffer v32 after region 0 is as before it. -/
theorem at4_v32 (c : Dev nD) : W4 m ρ c (Proc.devRef .tc main_v32) = W3 m ρ c (Proc.devRef .tc main_v32) :=
  calc W4 m ρ c (Proc.devRef .tc main_v32)
    _ = W3 m ρ c (Proc.devRef .tc main_v32) := W4_of_ne m ρ c main_v32 (by decide)

/-- Buffer v32 after region 2 is as before region 0. -/
theorem at7_v32 (c : Dev nD) : W7 m ρ c (Proc.devRef .tc main_v32) = W3 m ρ c (Proc.devRef .tc main_v32) :=
  calc W7 m ρ c (Proc.devRef .tc main_v32)
    _ = W6 m ρ c (Proc.devRef .tc main_v32) := W7_of_ne m ρ c main_v32 (by decide)
    _ = W5 m ρ c (Proc.devRef .tc main_v32) := W6_of_ne m ρ c main_v32 (by decide)
    _ = W4 m ρ c (Proc.devRef .tc main_v32) := by keeps hostOps1
    _ = W3 m ρ c (Proc.devRef .tc main_v32) := W4_of_ne m ρ c main_v32 (by decide)

/-- Buffer v32 after region 4 is as before region 0. -/
theorem at10_v32 (c : Dev nD) : W10 m ρ c (Proc.devRef .tc main_v32) = W3 m ρ c (Proc.devRef .tc main_v32) :=
  calc W10 m ρ c (Proc.devRef .tc main_v32)
    _ = W9 m ρ c (Proc.devRef .tc main_v32) := W10_of_ne m ρ c main_v32 (by decide)
    _ = W8 m ρ c (Proc.devRef .tc main_v32) := W9_of_ne m ρ c main_v32 (by decide)
    _ = W7 m ρ c (Proc.devRef .tc main_v32) := by keeps hostOps3
    _ = W6 m ρ c (Proc.devRef .tc main_v32) := W7_of_ne m ρ c main_v32 (by decide)
    _ = W5 m ρ c (Proc.devRef .tc main_v32) := W6_of_ne m ρ c main_v32 (by decide)
    _ = W4 m ρ c (Proc.devRef .tc main_v32) := by keeps hostOps1
    _ = W3 m ρ c (Proc.devRef .tc main_v32) := W4_of_ne m ρ c main_v32 (by decide)

/-! ## Each layer's weights and bias where they are read -/

/-- The first bias after region 0 is as before it. -/
theorem at4_arg4 (c : Dev nD) : W4 m ρ c (Proc.devRef .tc main_arg4) = W3 m ρ c (Proc.devRef .tc main_arg4) :=
  calc W4 m ρ c (Proc.devRef .tc main_arg4)
    _ = W3 m ρ c (Proc.devRef .tc main_arg4) := W4_of_ne m ρ c main_arg4 (by decide)

/-- The second weights when region 2 is entered are as before region 0. -/
theorem at6_arg5 (c : Dev nD) : W6 m ρ c (Proc.devRef .tc main_arg5) = W3 m ρ c (Proc.devRef .tc main_arg5) :=
  calc W6 m ρ c (Proc.devRef .tc main_arg5)
    _ = W5 m ρ c (Proc.devRef .tc main_arg5) := W6_of_ne m ρ c main_arg5 (by decide)
    _ = W4 m ρ c (Proc.devRef .tc main_arg5) := by keeps hostOps1
    _ = W3 m ρ c (Proc.devRef .tc main_arg5) := W4_of_ne m ρ c main_arg5 (by decide)

/-- The second bias after region 2 is as before region 0. -/
theorem at7_arg6 (c : Dev nD) : W7 m ρ c (Proc.devRef .tc main_arg6) = W3 m ρ c (Proc.devRef .tc main_arg6) :=
  calc W7 m ρ c (Proc.devRef .tc main_arg6)
    _ = W6 m ρ c (Proc.devRef .tc main_arg6) := W7_of_ne m ρ c main_arg6 (by decide)
    _ = W5 m ρ c (Proc.devRef .tc main_arg6) := W6_of_ne m ρ c main_arg6 (by decide)
    _ = W4 m ρ c (Proc.devRef .tc main_arg6) := by keeps hostOps1
    _ = W3 m ρ c (Proc.devRef .tc main_arg6) := W4_of_ne m ρ c main_arg6 (by decide)

/-- The third weights when region 4 is entered are as before region 0. -/
theorem at9_arg7 (c : Dev nD) : W9 m ρ c (Proc.devRef .tc main_arg7) = W3 m ρ c (Proc.devRef .tc main_arg7) :=
  calc W9 m ρ c (Proc.devRef .tc main_arg7)
    _ = W8 m ρ c (Proc.devRef .tc main_arg7) := W9_of_ne m ρ c main_arg7 (by decide)
    _ = W7 m ρ c (Proc.devRef .tc main_arg7) := by keeps hostOps3
    _ = W6 m ρ c (Proc.devRef .tc main_arg7) := W7_of_ne m ρ c main_arg7 (by decide)
    _ = W5 m ρ c (Proc.devRef .tc main_arg7) := W6_of_ne m ρ c main_arg7 (by decide)
    _ = W4 m ρ c (Proc.devRef .tc main_arg7) := by keeps hostOps1
    _ = W3 m ρ c (Proc.devRef .tc main_arg7) := W4_of_ne m ρ c main_arg7 (by decide)

/-- The third bias after region 4 is as before region 0. -/
theorem at10_arg8 (c : Dev nD) : W10 m ρ c (Proc.devRef .tc main_arg8) = W3 m ρ c (Proc.devRef .tc main_arg8) :=
  calc W10 m ρ c (Proc.devRef .tc main_arg8)
    _ = W9 m ρ c (Proc.devRef .tc main_arg8) := W10_of_ne m ρ c main_arg8 (by decide)
    _ = W8 m ρ c (Proc.devRef .tc main_arg8) := W9_of_ne m ρ c main_arg8 (by decide)
    _ = W7 m ρ c (Proc.devRef .tc main_arg8) := by keeps hostOps3
    _ = W6 m ρ c (Proc.devRef .tc main_arg8) := W7_of_ne m ρ c main_arg8 (by decide)
    _ = W5 m ρ c (Proc.devRef .tc main_arg8) := W6_of_ne m ρ c main_arg8 (by decide)
    _ = W4 m ρ c (Proc.devRef .tc main_arg8) := by keeps hostOps1
    _ = W3 m ρ c (Proc.devRef .tc main_arg8) := W4_of_ne m ρ c main_arg8 (by decide)

end Cert.KernelIdeal.Whole

end
-- ==== Proof.Stretches.lean ====
/-
  The host stretches of the idealized kernel, read as the reference's stages.

  Before region 0 the host builds the graph data once, in three stretches.  The first lists the source and the
  destination node of every edge with one self loop per node appended, each edge's weight with weight one for the
  self loops, and from these every node's weighted in-degree, the test that it is positive and its inverse square
  root.  The second selects the inverse square root where the degree is positive and zero elsewhere.  The third reads
  that vector at each edge's two end points and multiplies: the per-edge normalisation `dinv[src] · w · dinv[dst]`, as a
  column.  The reference computes the same lists by the same operations, so each buffer holds the reference's stage of
  the same two arguments; each stretch is read on its own, from what the previous one left.

  After each dense region the host aggregates: it gathers the product's rows at the source nodes, scales row e by the
  normalisation of edge e, and adds row e into the row of its destination node, from zero.  The reference aggregates by
  the same operations in the same order; given that the product and the graph data going in are the reference's stages,
  what comes out is the reference's next stage.  The bias is viewed as one row by a reshape.
-/
import proofs.«137676_j64493228916895_1_alg».proof.Proof.Gen.KernelIdeal.Frame
import proofs.«137676_j64493228916895_1_alg».proof.Proof.Gen.ReferenceIdeal.Read
import proofs.«137676_j64493228916895_1_alg».proof.Proof.Carried

set_option maxRecDepth 16384

noncomputable section

namespace Cert.KernelIdeal.Whole

open Idealize.ShloMosaic Idealize.ShloMosaic.TcCoe Idealize.SL.Sem Idealize.ShloMosaic.StableHlo
open Cert.KernelIdeal Cert.KernelIdeal.Gen
open Cert.ReferenceIdeal.Read (val_main_v3 val_main_v6 val_main_v8 val_main_v14 val_main_v15 val_main_cst_2 val_main_call0_v1 val_main_v16 val_main_v40 val_main_v9 val_main_v45 val_main_v50 val_main_v86 val_main_v91 val_main_v127)

/-! ## The first stretch: the lists, the degrees, the test and the inverse square root -/

section First

variable (Wv : Valuation τ sig (Elt Ideal))

/-- The source nodes, self loops appended. -/
theorem first_src : StableHlo.after (hostOps0 (F := Ideal)) Wv (Proc.devRef .tc main_v3)
    = val_main_v3 (F := Ideal) (Wv (Proc.devRef .tc main_arg1)) := by
  dsimp only [hostOps0]
  after_results_simp
  rfl

/-- The destination nodes, self loops appended. -/
theorem first_dst : StableHlo.after (hostOps0 (F := Ideal)) Wv (Proc.devRef .tc main_v6)
    = val_main_v6 (F := Ideal) (Wv (Proc.devRef .tc main_arg1)) := by
  dsimp only [hostOps0]
  after_results_simp
  rfl

/-- The edge weights, one appended per self loop. -/
theorem first_wts : StableHlo.after (hostOps0 (F := Ideal)) Wv (Proc.devRef .tc main_v8)
    = val_main_v8 (F := Ideal) (Wv (Proc.devRef .tc main_arg2)) := by
  dsimp only [hostOps0]
  after_results_simp
  rfl

/-- The test that a node's weighted in-degree is positive. -/
theorem first_pos : StableHlo.after (hostOps0 (F := Ideal)) Wv (Proc.devRef .tc main_v13)
    = val_main_v14 (F := Ideal) (Wv (Proc.devRef .tc main_arg1)) (Wv (Proc.devRef .tc main_arg2)) := by
  dsimp only [hostOps0]
  after_results_simp
  rfl

/-- The inverse square root of every node's weighted in-degree. -/
theorem first_rsqrt : StableHlo.after (hostOps0 (F := Ideal)) Wv (Proc.devRef .tc main_v14)
    = val_main_v15 (F := Ideal) (Wv (Proc.devRef .tc main_arg1)) (Wv (Proc.devRef .tc main_arg2)) := by
  dsimp only [hostOps0]
  after_results_simp
  rfl

/-- The zero the selection falls back to. -/
theorem first_zero : StableHlo.after (hostOps0 (F := Ideal)) Wv (Proc.devRef .tc main_cst_2) = val_main_cst_2 (F := Ideal) := by
  dsimp only [hostOps0]
  after_results_simp
  rfl

end First

/-! ## The second stretch: the selection -/

section Second

/-- The selection's buffers, each with the type of the tensor value it holds. -/
abbrev posRef : TRef sig ⟨S100000, .i1⟩ := TRef.of main_v13
abbrev rsqrtRef : TRef sig ⟨S100000, .f32⟩ := TRef.of main_v14
abbrev dinvRef : TRef sig ⟨S100000, .f32⟩ := TRef.of main_v15
abbrev zerosRef : TRef sig ⟨S100000, .f32⟩ := TRef.of main_call0_v1
abbrev zeroRef : TRef sig ⟨S_, .f32⟩ := TRef.of main_call0_v0
abbrev cstRef : TRef sig ⟨S_, .f32⟩ := TRef.of main_cst_2

/-- The selection as the stretch computes it — through each buffer's own type and back, which changes nothing — is the
    reference's: the first operand where the test holds, the zero constant spread over the nodes elsewhere. -/
theorem select_eq (A : (⟨Cert.ReferenceIdeal.S100000, .i1⟩ : BufTy).Contents (Elt Ideal)) (B : (⟨Cert.ReferenceIdeal.S100000, .f32⟩ : BufTy).Contents (Elt Ideal)) :
    dinvRef.toBuf (select (posRef.ofBuf A) (rsqrtRef.ofBuf B)
      (zerosRef.ofBuf (zerosRef.toBuf (broadcastInDim S100000 ![] bcast_S_S100000
        (zeroRef.ofBuf (zeroRef.toBuf (id (cstRef.ofBuf (val_main_cst_2 (F := Ideal))))))))))
      = select A B (val_main_call0_v1 (F := Ideal)) := rfl

end Second

/-- The inverse square root where the degree is positive, zero elsewhere. -/
theorem second_dinv (Wv : Valuation τ sig (Elt Ideal)) (x1 : (⟨Cert.ReferenceIdeal.S2x1600000, .i32⟩ : BufTy).Contents (Elt Ideal)) (x2 : (⟨Cert.ReferenceIdeal.S1600000, .f32⟩ : BufTy).Contents (Elt Ideal))
    (hp : Wv (Proc.devRef .tc main_v13) = val_main_v14 (F := Ideal) x1 x2)
    (hr : Wv (Proc.devRef .tc main_v14) = val_main_v15 (F := Ideal) x1 x2)
    (hz : Wv (Proc.devRef .tc main_cst_2) = val_main_cst_2 (F := Ideal)) :
    StableHlo.after (hostOps0_1 (F := Ideal)) Wv (Proc.devRef .tc main_v15) = val_main_v16 (F := Ideal) x1 x2 := by
  dsimp only [hostOps0_1]
  after_results_simp
  rw [hp, hr, hz]
  exact select_eq (val_main_v14 (F := Ideal) x1 x2) (val_main_v15 (F := Ideal) x1 x2)

/-! ## The third stretch: the per-edge normalisation -/

/-- The per-edge normalisation `dinv[src] · w · dinv[dst]`, as a column. -/
theorem third_norm (Wv : Valuation τ sig (Elt Ideal)) (x1 : (⟨Cert.ReferenceIdeal.S2x1600000, .i32⟩ : BufTy).Contents (Elt Ideal)) (x2 : (⟨Cert.ReferenceIdeal.S1600000, .f32⟩ : BufTy).Contents (Elt Ideal))
    (hs : Wv (Proc.devRef .tc main_v3) = val_main_v3 (F := Ideal) x1)
    (hd : Wv (Proc.devRef .tc main_v6) = val_main_v6 (F := Ideal) x1)
    (hw : Wv (Proc.devRef .tc main_v8) = val_main_v8 (F := Ideal) x2)
    (hi : Wv (Proc.devRef .tc main_v15) = val_main_v16 (F := Ideal) x1 x2) :
    StableHlo.after (hostOps0_2 (F := Ideal)) Wv (Proc.devRef .tc main_v32) = val_main_v40 (F := Ideal) x1 x2 := by
  dsimp only [hostOps0_2]
  after_results_simp
  rw [hs, hd, hw, hi]
  rfl

/-! ## The graph data when region 0 is entered -/

section Entry

variable (m : (ℓ : Loc nD τ sig) → Buf (Elt Ideal) ℓ) (ρ : Dev nD → PrngReg)

/-- The source nodes are the reference's list of the edge-index argument. -/
theorem graph_src (c : Dev nD) :
    W3 m ρ c (Proc.devRef .tc main_v3) = val_main_v3 (F := Ideal) (m ((c : Thread nD τ).loc main_arg1)) :=
  calc W3 m ρ c (Proc.devRef .tc main_v3)
    _ = W2 m ρ c (Proc.devRef .tc main_v3) := by keeps hostOps0_2
    _ = W1 m ρ c (Proc.devRef .tc main_v3) := by keeps hostOps0_1
    _ = _ := first_src (W0 m ρ c)

/-- The destination nodes are the reference's list of the edge-index argument. -/
theorem graph_dst (c : Dev nD) :
    W3 m ρ c (Proc.devRef .tc main_v6) = val_main_v6 (F := Ideal) (m ((c : Thread nD τ).loc main_arg1)) :=
  calc W3 m ρ c (Proc.devRef .tc main_v6)
    _ = W2 m ρ c (Proc.devRef .tc main_v6) := by keeps hostOps0_2
    _ = W1 m ρ c (Proc.devRef .tc main_v6) := by keeps hostOps0_1
    _ = _ := first_dst (W0 m ρ c)

/-- The normalisation column is the reference's column of the edge-index and weight arguments. -/
theorem graph_norm (c : Dev nD) :
    W3 m ρ c (Proc.devRef .tc main_v32)
      = val_main_v40 (F := Ideal) (m ((c : Thread nD τ).loc main_arg1)) (m ((c : Thread nD τ).loc main_arg2)) :=
  third_norm (W2 m ρ c) _ _
    ((show W2 m ρ c (Proc.devRef .tc main_v3) = W1 m ρ c (Proc.devRef .tc main_v3) from by keeps hostOps0_1).trans (first_src (W0 m ρ c)))
    ((show W2 m ρ c (Proc.devRef .tc main_v6) = W1 m ρ c (Proc.devRef .tc main_v6) from by keeps hostOps0_1).trans (first_dst (W0 m ρ c)))
    ((show W2 m ρ c (Proc.devRef .tc main_v8) = W1 m ρ c (Proc.devRef .tc main_v8) from by keeps hostOps0_1).trans (first_wts (W0 m ρ c)))
    (second_dinv (W1 m ρ c) _ _ (first_pos (W0 m ρ c)) (first_rsqrt (W0 m ρ c)) (first_zero (W0 m ρ c)))

end Entry

/-! ## The aggregation after each dense region, and the bias as one row -/

/-- Layer 1's aggregation: from contents holding the reference's product and graph data, the aggregate is the
    reference's aggregate. -/
theorem agg1 (Wv : Valuation τ sig (Elt Ideal)) (x0 : (⟨Cert.ReferenceIdeal.S100000x128, .f32⟩ : BufTy).Contents (Elt Ideal)) (x1 : (⟨Cert.ReferenceIdeal.S2x1600000, .i32⟩ : BufTy).Contents (Elt Ideal)) (x2 : (⟨Cert.ReferenceIdeal.S1600000, .f32⟩ : BufTy).Contents (Elt Ideal)) (x3 : (⟨Cert.ReferenceIdeal.S128x128, .f32⟩ : BufTy).Contents (Elt Ideal))
    (hh : Wv (Proc.devRef .tc main_v33) = val_main_v9 (F := Ideal) x0 x3)
    (hs : Wv (Proc.devRef .tc main_v3) = val_main_v3 (F := Ideal) x1)
    (hd : Wv (Proc.devRef .tc main_v6) = val_main_v6 (F := Ideal) x1)
    (hn : Wv (Proc.devRef .tc main_v32) = val_main_v40 (F := Ideal) x1 x2) :
    StableHlo.after (hostOps1 (F := Ideal)) Wv (Proc.devRef .tc main_v45) = val_main_v45 (F := Ideal) x0 x1 x2 x3 := by
  dsimp only [hostOps1]
  after_results_simp
  rw [hh, hs, hd, hn]
  rfl

/-- Layer 1's bias as one row: the reshape of the bias argument. -/
theorem biasRow1 (Wv : Valuation τ sig (Elt Ideal)) :
    StableHlo.after (hostOps1 (F := Ideal)) Wv (Proc.devRef .tc main_v46)
      = shapeCast S1x128 (Wv (Proc.devRef .tc main_arg4)) shapeCasts_S128_S1x128 := by
  dsimp only [hostOps1]
  after_results_simp
  rfl

/-- Layer 2's aggregation: from contents holding the reference's product and graph data, the aggregate is the
    reference's aggregate. -/
theorem agg2 (Wv : Valuation τ sig (Elt Ideal)) (x0 : (⟨Cert.ReferenceIdeal.S100000x128, .f32⟩ : BufTy).Contents (Elt Ideal)) (x1 : (⟨Cert.ReferenceIdeal.S2x1600000, .i32⟩ : BufTy).Contents (Elt Ideal)) (x2 : (⟨Cert.ReferenceIdeal.S1600000, .f32⟩ : BufTy).Contents (Elt Ideal)) (x3 : (⟨Cert.ReferenceIdeal.S128x128, .f32⟩ : BufTy).Contents (Elt Ideal)) (x4 : (⟨Cert.ReferenceIdeal.S128, .f32⟩ : BufTy).Contents (Elt Ideal)) (x5 : (⟨Cert.ReferenceIdeal.S128x128, .f32⟩ : BufTy).Contents (Elt Ideal))
    (hh : Wv (Proc.devRef .tc main_v48) = val_main_v50 (F := Ideal) x0 x1 x2 x3 x4 x5)
    (hs : Wv (Proc.devRef .tc main_v3) = val_main_v3 (F := Ideal) x1)
    (hd : Wv (Proc.devRef .tc main_v6) = val_main_v6 (F := Ideal) x1)
    (hn : Wv (Proc.devRef .tc main_v32) = val_main_v40 (F := Ideal) x1 x2) :
    StableHlo.after (hostOps3 (F := Ideal)) Wv (Proc.devRef .tc main_v60) = val_main_v86 (F := Ideal) x0 x1 x2 x3 x4 x5 := by
  dsimp only [hostOps3]
  after_results_simp
  rw [hh, hs, hd, hn]
  rfl

/-- Layer 2's bias as one row: the reshape of the bias argument. -/
theorem biasRow2 (Wv : Valuation τ sig (Elt Ideal)) :
    StableHlo.after (hostOps3 (F := Ideal)) Wv (Proc.devRef .tc main_v61)
      = shapeCast S1x128 (Wv (Proc.devRef .tc main_arg6)) shapeCasts_S128_S1x128 := by
  dsimp only [hostOps3]
  after_results_simp
  rfl

/-- Layer 3's aggregation: from contents holding the reference's product and graph data, the aggregate is the
    reference's aggregate. -/
theorem agg3 (Wv : Valuation τ sig (Elt Ideal)) (x0 : (⟨Cert.ReferenceIdeal.S100000x128, .f32⟩ : BufTy).Contents (Elt Ideal)) (x1 : (⟨Cert.ReferenceIdeal.S2x1600000, .i32⟩ : BufTy).Contents (Elt Ideal)) (x2 : (⟨Cert.ReferenceIdeal.S1600000, .f32⟩ : BufTy).Contents (Elt Ideal)) (x3 : (⟨Cert.ReferenceIdeal.S128x128, .f32⟩ : BufTy).Contents (Elt Ideal)) (x4 : (⟨Cert.ReferenceIdeal.S128, .f32⟩ : BufTy).Contents (Elt Ideal)) (x5 : (⟨Cert.ReferenceIdeal.S128x128, .f32⟩ : BufTy).Contents (Elt Ideal)) (x6 : (⟨Cert.ReferenceIdeal.S128, .f32⟩ : BufTy).Contents (Elt Ideal)) (x7 : (⟨Cert.ReferenceIdeal.S128x128, .f32⟩ : BufTy).Contents (Elt Ideal))
    (hh : Wv (Proc.devRef .tc main_v63) = val_main_v91 (F := Ideal) x0 x1 x2 x3 x4 x5 x6 x7)
    (hs : Wv (Proc.devRef .tc main_v3) = val_main_v3 (F := Ideal) x1)
    (hd : Wv (Proc.devRef .tc main_v6) = val_main_v6 (F := Ideal) x1)
    (hn : Wv (Proc.devRef .tc main_v32) = val_main_v40 (F := Ideal) x1 x2) :
    StableHlo.after (hostOps5 (F := Ideal)) Wv (Proc.devRef .tc main_v75) = val_main_v127 (F := Ideal) x0 x1 x2 x3 x4 x5 x6 x7 := by
  dsimp only [hostOps5]
  after_results_simp
  rw [hh, hs, hd, hn]
  rfl

/-- Layer 3's bias as one row: the reshape of the bias argument. -/
theorem biasRow3 (Wv : Valuation τ sig (Elt Ideal)) :
    StableHlo.after (hostOps5 (F := Ideal)) Wv (Proc.devRef .tc main_v76)
      = shapeCast S1x128 (Wv (Proc.devRef .tc main_arg8)) shapeCasts_S128_S1x128 := by
  dsimp only [hostOps5]
  after_results_simp
  rfl

end Cert.KernelIdeal.Whole

end
-- ==== Proof.LibRowOps.lean ====
/-
  Two-dimensional vector operations read at one index, on the extended reals.

  A kernel body that projects, normalises and contracts rows is a composition of a few operations on
  [a, b] vectors.  Each lemma below reads one of them at the index (r, c), with both coordinates explicit:
  a matrix product into a zero accumulator is the sum over the shared axis; a sum or a maximum along the
  second axis is the sum or the fold of `max` over that row; a length-a vector viewed as an [a, 1] column, the
  column repeated along a second axis, and a transpose only move coordinates.
-/
import Idealize.ShloMosaic.PureOps.Ideal.Laws
import Idealize.ShloMosaic.Lib.ValueIdx
import Idealize.ShloMosaic.Lib.Pipeline.Value

noncomputable section

namespace Cert.RowOps

open Idealize.ShloMosaic Idealize.ShloMosaic.ValueIdx

/-! ## A plain matrix product -/

/-- The dimension numbers of a plain `[M, K] × [K, N]` product: contract the left operand's second axis with the
    right operand's first, no batch axis. -/
structure IsPlain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Plain

variable {M K N : Nat} {d : DotDims ⟨2, ![M, K]⟩ ⟨2, ![K, N]⟩ ⟨2, ![M, N]⟩}

private theorem val_congr {n : Nat} {s : Fin n → Nat} (j : (i : Fin n) → Fin (s i)) :
    ∀ (p q : Nat) (hp : p < n) (hq : q < n), p = q → (j ⟨p, hp⟩).val = (j ⟨q, hq⟩).val :=
  fun p q hp hq h => by subst h; rfl

theorem contr_rank (hd : IsPlain d) : d.contr.rank = 1 := by
  rw [d.rank_contr, hd.lc]; rfl

theorem contr_size (hd : IsPlain d) : d.contr.size ⟨0, by rw [contr_rank hd]; exact Nat.one_pos⟩ = K := by
  rw [d.size_contr 0 (by rw [hd.lc]; exact Nat.one_pos)]
  simp only [hd.lc, List.getElem_cons_zero]
  rfl

/-- The left operand's row coordinate is the result's row coordinate. -/
theorem lhsIdx_row (hd : IsPlain d) (j : (⟨2, ![M, N]⟩ : Shape).Idx) (k : d.contr.Idx) :
    (d.lhsIdx j k 0).val = (j 0).val := by
  unfold DotDims.lhsIdx
  rw [dif_neg (by rw [hd.lb]; exact List.not_mem_nil), dif_pos (by rw [hd.ln]; exact List.mem_singleton.mpr rfl)]
  simp only [Fin.val_cast]
  exact val_congr j _ _ _ _ (by simp [hd.lb, hd.ln])

/-- The right operand's column coordinate is the result's column coordinate. -/
theorem rhsIdx_col (hd : IsPlain d) (j : (⟨2, ![M, N]⟩ : Shape).Idx) (k : d.contr.Idx) :
    (d.rhsIdx j k 1).val = (j 1).val := by
  unfold DotDims.rhsIdx
  rw [dif_neg (by rw [hd.rb]; exact List.not_mem_nil), dif_pos (by rw [hd.rn]; exact List.mem_singleton.mpr rfl)]
  simp only [Fin.val_cast]
  exact val_congr j _ _ _ _ (by simp [hd.lb, hd.ln, hd.rn])

/-- A plain matrix product into a zero accumulator, at (r, c): the sum over the shared axis of the products. -/
theorem matmul_zero_apply (hd : IsPlain d) {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul d prec lhs rhs (constant ⟨2, ![M, N]⟩ .f32 0x00000000#32) (ix2 r c)
      = ∑ k : Fin K, lhs (ix2 r k) * rhs (ix2 k c) := by
  rw [Ideal.matmul_constant_zero_apply,
    ← Equiv.sum_comp (contrEquiv1 d K (contr_rank hd) (contr_size hd)).symm]
  refine Finset.sum_congr rfl fun k _ => ?_
  have hk := contrEquiv1_symm_val d K (contr_rank hd) (contr_size hd) k
  have el : d.lhsIdx (ix2 r c) ((contrEquiv1 d K (contr_rank hd) (contr_size hd)).symm k) = ix2 r k :=
    funext fun a => Fin.ext (by
      match a with
      | ⟨0, _⟩ => exact lhsIdx_row hd _ _
      | ⟨1, _⟩ => exact (d.lhsIdx_val_of_single hd.lc _ _).trans hk)
  have er : d.rhsIdx (ix2 r c) ((contrEquiv1 d K (contr_rank hd) (contr_size hd)).symm k) = ix2 k c :=
    funext fun a => Fin.ext (by
      match a with
      | ⟨0, _⟩ => exact (d.rhsIdx_val_of_single hd.rc _ _).trans hk
      | ⟨1, _⟩ => exact rhsIdx_col hd _ _)
  rw [el, er]

end Plain

/-! ## Reductions along the second axis -/

section Rows

variable {a b : Nat} {φ : FTy}

/-- The index over row `r` with second coordinate `k`. -/
theorem lift_row (h : (⟨2, ![a, b]⟩ : Shape).Reduces [1] ⟨1, ![a]⟩) (r : Fin a) (k : Fin b) :
    h.lift (ix1 r) k = ix2 r k :=
  funext fun c => Fin.ext (by
    show h.liftVal (ix1 r) k.val c = (ix2 r k c).val
    unfold Shape.Reduces.liftVal
    match c with
    | ⟨0, _⟩ => rfl
    | ⟨1, _⟩ => rfl)

/-- A sum along the second axis, at row `r`: the sum of that row. -/
theorem rowSum_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) := by
  rw [Ideal.multiReduction_add_single]
  exact Finset.sum_congr rfl fun k _ => congrArg src (lift_row h r k)

/-- A maximum along the second axis, at row `r`: the fold of `max` over that row from the starting word's value. -/
theorem rowMax_apply (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) := by
  rw [Ideal.multiReduction_maximumf_single]
  exact congrArg (Finset.fold max _ · _) (funext fun k => congrArg src (lift_row h r k))

end Rows

/-! ## Moving coordinates -/

section Layout

variable {α : Type} {a b : Nat}

/-- A length-`a` vector viewed as an `[a, 1]` column reads, at (i, u), the vector at i. -/
theorem column_apply (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An `[a, 1]` column repeated along a second axis reads, at (i, j), the column at (i, 0). -/
theorem spread_apply (x : (⟨2, ![a, 1]⟩ : Shape).Idx → α) (h : (⟨2, ![a, 1]⟩ : Shape).Broadcasts ⟨2, ![a, b]⟩)
    (i : Fin a) (j : Fin b) : broadcastTo ⟨2, ![a, b]⟩ x h (ix2 i j) = x (ix2 i (0 : Fin 1)) :=
  broadcastTo_apply x h _ _ (fun c => by
    match c with
    | ⟨0, _⟩ =>
      show i.val = if a = 1 then 0 else i.val
      split
      · next h1 => have := i.isLt; omega
      · rfl
    | ⟨1, _⟩ => show 0 = if (1 : Nat) = 1 then 0 else j.val; rw [if_pos rfl])

/-- A transposed `[a, b]` vector reads, at (p, q), the vector at (q, p). -/
theorem swap_apply (x : (⟨2, ![a, b]⟩ : Shape).Idx → α) (h : (⟨2, ![a, b]⟩ : Shape).Transposes [1, 0] ⟨2, ![b, a]⟩)
    (p : Fin b) (q : Fin a) : transpose ⟨2, ![b, a]⟩ [1, 0] x h (ix2 p q) = x (ix2 q p) :=
  transpose_apply [1, 0] x h _ _ (fun c => by
    match c with
    | ⟨0, _⟩ => rfl
    | ⟨1, _⟩ => rfl)

end Layout

end Cert.RowOps

end
-- ==== Proof.LayerSpec.lean ====
/-
  One graph-convolution layer, index by index, on the extended reals.

  A layer takes node features X : [100000, 128], a weight matrix W : [128, 128] and a bias row b : [1, 128].  Its dense
  part is the row-by-column product (X·W)(r, j) = ∑ₖ X(r, k) · W(k, j); after the edge-weighted aggregation of the
  product's rows, the bias row is added to every row and the result is clamped below at zero,
  out(r, j) = max (A(r, j) + b(0, j), 0).  Both are stated here as whole-array functions, with no tiling: a block of
  rows of either is the same function read at those rows.
-/
import Idealize.ShloMosaic.PureOps.Ideal
import Idealize.ShloMosaic.Lib.ValueIdx

noncomputable section

namespace Cert.Gcn

open Idealize.ShloMosaic Idealize.ShloMosaic.ValueIdx

/-- Node features: one row of 128 per node. -/
abbrev Feat : Shape := ⟨2, ![100000, 128]⟩
/-- A layer's weight matrix. -/
abbrev Wt : Shape := ⟨2, ![128, 128]⟩
/-- A layer's bias, as one row. -/
abbrev BiasRow : Shape := ⟨2, ![1, 128]⟩

/-- The dense part of a layer: entry (r, j) of X·W is the sum over k of X(r, k) · W(k, j). -/
def rowsTimes (X : FVec Ideal Feat .f32) (W : FVec Ideal Wt .f32) : FVec Ideal Feat .f32 :=
  fun i => ∑ k : Fin 128, X (ix2 (n0 := 100000) (n1 := 128) ⟨(i 0).val, idx2_lt0 i⟩ k)
    * W (ix2 (n0 := 128) (n1 := 128) k ⟨(i 1).val, idx2_lt1 i⟩)

/-- The end of a layer: the bias row added to every row of the aggregate, then clamped below at zero. -/
def biasRelu (A : FVec Ideal Feat .f32) (b : FVec Ideal BiasRow .f32) : FVec Ideal Feat .f32 :=
  fun i => max (A i + b (ix2 (n0 := 1) (n1 := 128) (0 : Fin 1) ⟨(i 1).val, idx2_lt1 i⟩)) (Ideal.ofBits .f32 0x00000000#32)

/-- The zero offsets of a whole-block access, however spelt. -/
theorem zero2 : (![0, 0] : Fin 2 → Nat) = fun _ => 0 := funext fun a => by fin_cases a <;> rfl

/-- The product at explicit coordinates. -/
theorem rowsTimes_ix2 (X : FVec Ideal Feat .f32) (W : FVec Ideal Wt .f32) (r : Fin 100000) (j : Fin 128) :
    rowsTimes X W (ix2 r j) = ∑ k : Fin 128, X (ix2 r k) * W (ix2 k j) := rfl

/-- The layer's end at explicit coordinates. -/
theorem biasRelu_ix2 (A : FVec Ideal Feat .f32) (b : FVec Ideal BiasRow .f32) (r : Fin 100000) (j : Fin 128) :
    biasRelu A b (ix2 r j) = max (A (ix2 r j) + b (ix2 (0 : Fin 1) j)) (Ideal.ofBits .f32 0x00000000#32) := rfl

end Cert.Gcn

end
-- ==== Proof.RegionDense.lean ====
/-
  The three dense regions: each leaves X·W in its output array.

  A dense region walks ten grid points; at point t it loads rows 10000·t … 10000·t + 9999 of its first operand and the
  whole weight matrix, multiplies them into a zero accumulator and writes the product back to the same rows of its
  output.  At the exact instance the rounding of both operands to a narrower format is the identity and the product into
  zero is the row-by-column sum, so what point t writes back is rows 10000·t … of the one whole-array product
  `rowsTimes X W`.  The ten blocks tile the 100000 rows, hence the output array ends holding `rowsTimes X W` everywhere.
-/
import proofs.«137676_j64493228916895_1_alg».proof.Proof.Gen.KernelIdeal.Frame
import proofs.«137676_j64493228916895_1_alg».proof.Proof.LibRowOps
import proofs.«137676_j64493228916895_1_alg».proof.Proof.LayerSpec
import Idealize.ShloMosaic.Lib.Pipeline.Value
import Idealize.ShloMosaic.Lib.ValueLayout

set_option maxRecDepth 16384

noncomputable section

namespace Cert.KernelIdeal.Whole

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Gcn

variable (V : (c : Dev nD) → (b : Ref sig .tc) → Buf (Elt Ideal) ((c : Thread nD τ).loc b))

/-- A block of 10000 rows of a product: if the loaded block `x0` is rows `b·10000 …` of `X` and the loaded matrix `x1` is
    `W`, the row-by-column sums over the block are the whole product's entries at those rows. -/
theorem block_rowsTimes (x0 : Vec Ideal S10000x128 .f32) (x1 : Vec Ideal S128x128 .f32)
    (X : FVec Ideal Feat .f32) (W : FVec Ideal Wt .f32) (b : Nat)
    (h0 : ∀ (p : Fin 10000) (k : Fin 128) (hp : b * 10000 + p.val < 100000), x0 (ix2 p k) = X (ix2 ⟨b * 10000 + p.val, hp⟩ k))
    (h1 : ∀ (k q : Fin 128), x1 (ix2 k q) = W (ix2 k q))
    (p : Fin 10000) (q : Fin 128) (hp : b * 10000 + p.val < 100000) :
    (∑ k : Fin 128, x0 (ix2 p k) * x1 (ix2 k q)) = rowsTimes X W (ix2 ⟨b * 10000 + p.val, hp⟩ q) := by
  rw [rowsTimes_ix2]
  exact Finset.sum_congr rfl fun k _ => by rw [h0 p k hp, h1 k q]

/-! ## Region 0 -/

/-- The body's stored value at (p, q): the sum over k of the first block at (p, k) times the second at (k, q). -/
theorem pay_dense0 (x0 : Vec Ideal S10000x128 .f32) (x1 : Vec Ideal S128x128 .f32) (p : Fin 10000) (q : Fin 128) :
    k0_pay1 (F := Ideal) x0 x1 (ix2 p q) = ∑ k : Fin 128, x0 (ix2 p k) * x1 (ix2 k q) := by
  unfold k0_pay1
  exact Cert.RowOps.matmul_zero_apply (d := dot_S10000x128_S128x128_S10000x128_1_0_0_1_n_n) ⟨rfl, rfl, rfl, rfl, rfl, rfl⟩ none _ _ p q

/-- The printed index maps over the ten points: the row operand and the output sit at block row t, the matrix at its
    one block. -/
theorem idx_dense0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is rows 10000·t … of the whole product of the arrays the region finds. -/
theorem flushed_dense0 (c : Dev nD) (t : Fin cfg0.N) :
    (dat0 V c).flushed 2 t = ((cfg0.win 2).blk t).view.read (Elt Ideal)
      (rowsTimes (V c (Pipeline.arrRef spec0 0)) (V c (Pipeline.arrRef spec0 1))) := by
  show (cfg0.win 2).cut (grid0.coords t) ((dat0 V c).after 2 t) = _
  rw [after0_2]
  unfold out0_2
  rw [View.canon_unit_zero zero2]
  simp only [View.ld_unit_zero (S := S10000x128) zero2, View.ld_unit_zero (S := S128x128) zero2]
  obtain ⟨e00, e01, e10, e11, e20, e21⟩ := idx_dense0 t
  have ht : t.val < 10 := t.isLt
  funext j
  obtain ⟨p, q, rfl⟩ : ∃ (p : Fin 10000) (q : Fin 128), j = ix2 p q := ⟨j 0, j 1, eq_ix2 j⟩
  have hp : t.val * 10000 + p.val < 100000 := by have := p.isLt; omega
  show k0_pay1 (iblk0 V c 0 t) (iblk0 V c 1 t) (ix2 p q)
    = rowsTimes (V c (Pipeline.arrRef spec0 0)) (V c (Pipeline.arrRef spec0 1)) (((cfg0.win 2).blk t).view.emb (ix2 p q))
  have hemb : ((cfg0.win 2).blk t).view.emb (ix2 p q) = ix2 (n0 := 100000) (n1 := 128) ⟨t.val * 10000 + p.val, hp⟩ q := by
    funext a; apply Fin.ext
    match a with
    | ⟨0, _⟩ => show win0_2.index t (0 : Fin 2) * 10000 + 1 * p.val = t.val * 10000 + p.val; omega
    | ⟨1, _⟩ => show win0_2.index t (1 : Fin 2) * 128 + 1 * q.val = q.val; omega
  rw [hemb]
  refine (pay_dense0 (iblk0 V c 0 t) (iblk0 V c 1 t) p q).trans ?_
  refine block_rowsTimes (iblk0 V c 0 t) (iblk0 V c 1 t) _ _ t.val (fun p' k hp' => ?_) (fun k q' => ?_) p q hp
  · show V c (Pipeline.arrRef spec0 0) (((cfg0.win 0).blk t).view.emb (ix2 p' k)) = _
    refine congrArg _ (funext fun a => Fin.ext ?_)
    match a with
    | ⟨0, _⟩ => show win0_0.index t (0 : Fin 2) * 10000 + 1 * p'.val = t.val * 10000 + p'.val; omega
    | ⟨1, _⟩ => show win0_0.index t (1 : Fin 2) * 128 + 1 * k.val = k.val; omega
  · show V c (Pipeline.arrRef spec0 1) (((cfg0.win 1).blk t).view.emb (ix2 k q')) = _
    refine congrArg _ (funext fun a => Fin.ext ?_)
    match a with
    | ⟨0, _⟩ => show win0_1.index t (0 : Fin 2) * 128 + 1 * k.val = k.val; omega
    | ⟨1, _⟩ => show win0_1.index t (1 : Fin 2) * 128 + 1 * q'.val = q'.val; omega

/-- An index of the output array is in point t's block iff its row lies in that block's rows. -/
theorem mem_blk_dense0 (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v33).slice (win0_2.rect t)).set ↔ _
  rw [View.set_slice_whole, Rect.mem_set_unit]
  exact Iff.rfl

/-- THE OUTPUT ARRAY after the region: the whole product of the two arrays the region finds. -/
theorem final_dense0 (c : Dev nD) :
    (dat0 V c).arrAt 2 cfg0.N = rowsTimes (V c (Pipeline.arrRef spec0 0)) (V c (Pipeline.arrRef spec0 1)) := by
  refine (dat0 V c).arrAt_eq_of_cover 2 _ (fun t _ => flushed_dense0 V c t) fun i => ?_
  have hi0 : (i 0).val < 100000 := (i 0).isLt
  have hi1 : (i 1).val < 128 := (i 1).isLt
  have hN : (i 0).val / 10000 < cfg0.N := by show (i 0).val / 10000 < 10; omega
  refine ⟨⟨(i 0).val / 10000, hN⟩, flush0_2 _, ?_⟩
  rw [mem_blk_dense0]
  obtain ⟨e00, e01, e10, e11, e20, e21⟩ := idx_dense0 ⟨(i 0).val / 10000, hN⟩
  intro a
  match a with
  | ⟨0, _⟩ =>
    show win0_2.index ⟨(i 0).val / 10000, hN⟩ (0 : Fin 2) * 10000 ≤ (i 0).val ∧ (i 0).val < win0_2.index ⟨(i 0).val / 10000, hN⟩ (0 : Fin 2) * 10000 + 10000
    rw [e20]; show (i 0).val / 10000 * 10000 ≤ (i 0).val ∧ (i 0).val < (i 0).val / 10000 * 10000 + 10000; omega
  | ⟨1, _⟩ =>
    show win0_2.index ⟨(i 0).val / 10000, hN⟩ (1 : Fin 2) * 128 ≤ (i 1).val ∧ (i 1).val < win0_2.index ⟨(i 0).val / 10000, hN⟩ (1 : Fin 2) * 128 + 128
    rw [e21]; omega

/-! ## Region 2 -/

/-- The body's stored value at (p, q): the sum over k of the first block at (p, k) times the second at (k, q). -/
theorem pay_dense2 (x0 : Vec Ideal S10000x128 .f32) (x1 : Vec Ideal S128x128 .f32) (p : Fin 10000) (q : Fin 128) :
    k2_pay1 (F := Ideal) x0 x1 (ix2 p q) = ∑ k : Fin 128, x0 (ix2 p k) * x1 (ix2 k q) := by
  unfold k2_pay1
  simp only [shapeCast_self]
  exact Cert.RowOps.matmul_zero_apply (d := dot_S10000x128_S128x128_S10000x128_1_0_0_1_n_n) ⟨rfl, rfl, rfl, rfl, rfl, rfl⟩ none _ _ p q

/-- The printed index maps over the ten points: the row operand and the output sit at block row t, the matrix at its
    one block. -/
theorem idx_dense2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is rows 10000·t … of the whole product of the arrays the region finds. -/
theorem flushed_dense2 (c : Dev nD) (t : Fin cfg2.N) :
    (dat2 V c).flushed 2 t = ((cfg2.win 2).blk t).view.read (Elt Ideal)
      (rowsTimes (V c (Pipeline.arrRef spec2 0)) (V c (Pipeline.arrRef spec2 1))) := by
  show (cfg2.win 2).cut (grid2.coords t) ((dat2 V c).after 2 t) = _
  rw [after2_2]
  unfold out2_2
  rw [View.canon_unit_zero zero2]
  simp only [View.ld_unit_zero (S := S10000x128) zero2, View.ld_unit_zero (S := S128x128) zero2]
  obtain ⟨e00, e01, e10, e11, e20, e21⟩ := idx_dense2 t
  have ht : t.val < 10 := t.isLt
  funext j
  obtain ⟨p, q, rfl⟩ : ∃ (p : Fin 10000) (q : Fin 128), j = ix2 p q := ⟨j 0, j 1, eq_ix2 j⟩
  have hp : t.val * 10000 + p.val < 100000 := by have := p.isLt; omega
  show k2_pay1 (iblk2 V c 0 t) (iblk2 V c 1 t) (ix2 p q)
    = rowsTimes (V c (Pipeline.arrRef spec2 0)) (V c (Pipeline.arrRef spec2 1)) (((cfg2.win 2).blk t).view.emb (ix2 p q))
  have hemb : ((cfg2.win 2).blk t).view.emb (ix2 p q) = ix2 (n0 := 100000) (n1 := 128) ⟨t.val * 10000 + p.val, hp⟩ q := by
    funext a; apply Fin.ext
    match a with
    | ⟨0, _⟩ => show win2_2.index t (0 : Fin 2) * 10000 + 1 * p.val = t.val * 10000 + p.val; omega
    | ⟨1, _⟩ => show win2_2.index t (1 : Fin 2) * 128 + 1 * q.val = q.val; omega
  rw [hemb]
  refine (pay_dense2 (iblk2 V c 0 t) (iblk2 V c 1 t) p q).trans ?_
  refine block_rowsTimes (iblk2 V c 0 t) (iblk2 V c 1 t) _ _ t.val (fun p' k hp' => ?_) (fun k q' => ?_) p q hp
  · show V c (Pipeline.arrRef spec2 0) (((cfg2.win 0).blk t).view.emb (ix2 p' k)) = _
    refine congrArg _ (funext fun a => Fin.ext ?_)
    match a with
    | ⟨0, _⟩ => show win2_0.index t (0 : Fin 2) * 10000 + 1 * p'.val = t.val * 10000 + p'.val; omega
    | ⟨1, _⟩ => show win2_0.index t (1 : Fin 2) * 128 + 1 * k.val = k.val; omega
  · show V c (Pipeline.arrRef spec2 1) (((cfg2.win 1).blk t).view.emb (ix2 k q')) = _
    refine congrArg _ (funext fun a => Fin.ext ?_)
    match a with
    | ⟨0, _⟩ => show win2_1.index t (0 : Fin 2) * 128 + 1 * k.val = k.val; omega
    | ⟨1, _⟩ => show win2_1.index t (1 : Fin 2) * 128 + 1 * q'.val = q'.val; omega

/-- An index of the output array is in point t's block iff its row lies in that block's rows. -/
theorem mem_blk_dense2 (t : Fin cfg2.N) (i : S100000x128.Idx) :
    i ∈ ((cfg2.win 2).blk t).view.set ↔ ∀ a : Fin 2, win2_2.index t a * S10000x128.size a ≤ (i a).val ∧ (i a).val < win2_2.index t a * S10000x128.size a + S10000x128.size a := by
  show i ∈ ((View.whole main_v48).slice (win2_2.rect t)).set ↔ _
  rw [View.set_slice_whole, Rect.mem_set_unit]
  exact Iff.rfl

/-- THE OUTPUT ARRAY after the region: the whole product of the two arrays the region finds. -/
theorem final_dense2 (c : Dev nD) :
    (dat2 V c).arrAt 2 cfg2.N = rowsTimes (V c (Pipeline.arrRef spec2 0)) (V c (Pipeline.arrRef spec2 1)) := by
  refine (dat2 V c).arrAt_eq_of_cover 2 _ (fun t _ => flushed_dense2 V c t) fun i => ?_
  have hi0 : (i 0).val < 100000 := (i 0).isLt
  have hi1 : (i 1).val < 128 := (i 1).isLt
  have hN : (i 0).val / 10000 < cfg2.N := by show (i 0).val / 10000 < 10; omega
  refine ⟨⟨(i 0).val / 10000, hN⟩, flush2_2 _, ?_⟩
  rw [mem_blk_dense2]
  obtain ⟨e00, e01, e10, e11, e20, e21⟩ := idx_dense2 ⟨(i 0).val / 10000, hN⟩
  intro a
  match a with
  | ⟨0, _⟩ =>
    show win2_2.index ⟨(i 0).val / 10000, hN⟩ (0 : Fin 2) * 10000 ≤ (i 0).val ∧ (i 0).val < win2_2.index ⟨(i 0).val / 10000, hN⟩ (0 : Fin 2) * 10000 + 10000
    rw [e20]; show (i 0).val / 10000 * 10000 ≤ (i 0).val ∧ (i 0).val < (i 0).val / 10000 * 10000 + 10000; omega
  | ⟨1, _⟩ =>
    show win2_2.index ⟨(i 0).val / 10000, hN⟩ (1 : Fin 2) * 128 ≤ (i 1).val ∧ (i 1).val < win2_2.index ⟨(i 0).val / 10000, hN⟩ (1 : Fin 2) * 128 + 128
    rw [e21]; omega

/-! ## Region 4 -/

/-- The body's stored value at (p, q): the sum over k of the first block at (p, k) times the second at (k, q). -/
theorem pay_dense4 (x0 : Vec Ideal S10000x128 .f32) (x1 : Vec Ideal S128x128 .f32) (p : Fin 10000) (q : Fin 128) :
    k4_pay1 (F := Ideal) x0 x1 (ix2 p q) = ∑ k : Fin 128, x0 (ix2 p k) * x1 (ix2 k q) := by
  unfold k4_pay1
  simp only [shapeCast_self]
  exact Cert.RowOps.matmul_zero_apply (d := dot_S10000x128_S128x128_S10000x128_1_0_0_1_n_n) ⟨rfl, rfl, rfl, rfl, rfl, rfl⟩ none _ _ p q

/-- The printed index maps over the ten points: the row operand and the output sit at block row t, the matrix at its
    one block. -/
theorem idx_dense4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What point t writes back is rows 10000·t … of the whole product of the arrays the region finds. -/
theorem flushed_dense4 (c : Dev nD) (t : Fin cfg4.N) :
    (dat4 V c).flushed 2 t = ((cfg4.win 2).blk t).view.read (Elt Ideal)
      (rowsTimes (V c (Pipeline.arrRef spec4 0)) (V c (Pipeline.arrRef spec4 1))) := by
  show (cfg4.win 2).cut (grid4.coords t) ((dat4 V c).after 2 t) = _
  rw [after4_2]
  unfold out4_2
  rw [View.canon_unit_zero zero2]
  simp only [View.ld_unit_zero (S := S10000x128) zero2, View.ld_unit_zero (S := S128x128) zero2]
  obtain ⟨e00, e01, e10, e11, e20, e21⟩ := idx_dense4 t
  have ht : t.val < 10 := t.isLt
  funext j
  obtain ⟨p, q, rfl⟩ : ∃ (p : Fin 10000) (q : Fin 128), j = ix2 p q := ⟨j 0, j 1, eq_ix2 j⟩
  have hp : t.val * 10000 + p.val < 100000 := by have := p.isLt; omega
  show k4_pay1 (iblk4 V c 0 t) (iblk4 V c 1 t) (ix2 p q)
    = rowsTimes (V c (Pipeline.arrRef spec4 0)) (V c (Pipeline.arrRef spec4 1)) (((cfg4.win 2).blk t).view.emb (ix2 p q))
  have hemb : ((cfg4.win 2).blk t).view.emb (ix2 p q) = ix2 (n0 := 100000) (n1 := 128) ⟨t.val * 10000 + p.val, hp⟩ q := by
    funext a; apply Fin.ext
    match a with
    | ⟨0, _⟩ => show win4_2.index t (0 : Fin 2) * 10000 + 1 * p.val = t.val * 10000 + p.val; omega
    | ⟨1, _⟩ => show win4_2.index t (1 : Fin 2) * 128 + 1 * q.val = q.val; omega
  rw [hemb]
  refine (pay_dense4 (iblk4 V c 0 t) (iblk4 V c 1 t) p q).trans ?_
  refine block_rowsTimes (iblk4 V c 0 t) (iblk4 V c 1 t) _ _ t.val (fun p' k hp' => ?_) (fun k q' => ?_) p q hp
  · show V c (Pipeline.arrRef spec4 0) (((cfg4.win 0).blk t).view.emb (ix2 p' k)) = _
    refine congrArg _ (funext fun a => Fin.ext ?_)
    match a with
    | ⟨0, _⟩ => show win4_0.index t (0 : Fin 2) * 10000 + 1 * p'.val = t.val * 10000 + p'.val; omega
    | ⟨1, _⟩ => show win4_0.index t (1 : Fin 2) * 128 + 1 * k.val = k.val; omega
  · show V c (Pipeline.arrRef spec4 1) (((cfg4.win 1).blk t).view.emb (ix2 k q')) = _
    refine congrArg _ (funext fun a => Fin.ext ?_)
    match a with
    | ⟨0, _⟩ => show win4_1.index t (0 : Fin 2) * 128 + 1 * k.val = k.val; omega
    | ⟨1, _⟩ => show win4_1.index t (1 : Fin 2) * 128 + 1 * q'.val = q'.val; omega

/-- An index of the output array is in point t's block iff its row lies in that block's rows. -/
theorem mem_blk_dense4 (t : Fin cfg4.N) (i : S100000x128.Idx) :
    i ∈ ((cfg4.win 2).blk t).view.set ↔ ∀ a : Fin 2, win4_2.index t a * S10000x128.size a ≤ (i a).val ∧ (i a).val < win4_2.index t a * S10000x128.size a + S10000x128.size a := by
  show i ∈ ((View.whole main_v63).slice (win4_2.rect t)).set ↔ _
  rw [View.set_slice_whole, Rect.mem_set_unit]
  exact Iff.rfl

/-- THE OUTPUT ARRAY after the region: the whole product of the two arrays the region finds. -/
theorem final_dense4 (c : Dev nD) :
    (dat4 V c).arrAt 2 cfg4.N = rowsTimes (V c (Pipeline.arrRef spec4 0)) (V c (Pipeline.arrRef spec4 1)) := by
  refine (dat4 V c).arrAt_eq_of_cover 2 _ (fun t _ => flushed_dense4 V c t) fun i => ?_
  have hi0 : (i 0).val < 100000 := (i 0).isLt
  have hi1 : (i 1).val < 128 := (i 1).isLt
  have hN : (i 0).val / 10000 < cfg4.N := by show (i 0).val / 10000 < 10; omega
  refine ⟨⟨(i 0).val / 10000, hN⟩, flush4_2 _, ?_⟩
  rw [mem_blk_dense4]
  obtain ⟨e00, e01, e10, e11, e20, e21⟩ := idx_dense4 ⟨(i 0).val / 10000, hN⟩
  intro a
  match a with
  | ⟨0, _⟩ =>
    show win4_2.index ⟨(i 0).val / 10000, hN⟩ (0 : Fin 2) * 10000 ≤ (i 0).val ∧ (i 0).val < win4_2.index ⟨(i 0).val / 10000, hN⟩ (0 : Fin 2) * 10000 + 10000
    rw [e20]; show (i 0).val / 10000 * 10000 ≤ (i 0).val ∧ (i 0).val < (i 0).val / 10000 * 10000 + 10000; omega
  | ⟨1, _⟩ =>
    show win4_2.index ⟨(i 0).val / 10000, hN⟩ (1 : Fin 2) * 128 ≤ (i 1).val ∧ (i 1).val < win4_2.index ⟨(i 0).val / 10000, hN⟩ (1 : Fin 2) * 128 + 128
    rw [e21]; omega

end Cert.KernelIdeal.Whole

end
-- ==== Proof.RegionBias.lean ====
/-
  The three closing regions: each leaves max (A + b, 0) in its output array.

  A closing region walks ten grid points; at point t it loads rows 10000·t … 10000·t + 9999 of the aggregate A and the
  one bias row b, adds the bias row to every loaded row, clamps below at zero and writes the block back to the same
  rows of its output.  Entry (p, q) of what point t writes is max (A(10000·t + p, q) + b(0, q), 0): rows 10000·t … of
  the whole-array function `biasRelu A b`.  The ten blocks tile the 100000 rows, hence the output array ends holding
  `biasRelu A b` everywhere.
-/
import proofs.«137676_j64493228916895_1_alg».proof.Proof.Gen.KernelIdeal.Frame
import proofs.«137676_j64493228916895_1_alg».proof.Proof.LayerSpec
import Idealize.ShloMosaic.Lib.Pipeline.Value
import Idealize.ShloMosaic.Lib.ValueLayout

set_option maxRecDepth 16384

noncomputable section

namespace Cert.KernelIdeal.Whole

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Gcn

variable (V : (c : Dev nD) → (b : Ref sig .tc) → Buf (Elt Ideal) ((c : Thread nD τ).loc b))

/-- A block of 10000 rows of a layer's end: if the loaded block `x0` is rows `b·10000 …` of `A` and the loaded row `x1`
    is the bias row, the block's entries are the whole-array function's at those rows. -/
theorem block_biasRelu (x0 : Vec Ideal S10000x128 .f32) (x1 : Vec Ideal S1x128 .f32)
    (A : FVec Ideal Feat .f32) (bias : FVec Ideal BiasRow .f32) (b : Nat)
    (h0 : ∀ (p : Fin 10000) (q : Fin 128) (hp : b * 10000 + p.val < 100000), x0 (ix2 p q) = A (ix2 ⟨b * 10000 + p.val, hp⟩ q))
    (h1 : ∀ (q : Fin 128), x1 (ix2 (0 : Fin 1) q) = bias (ix2 (0 : Fin 1) q))
    (p : Fin 10000) (q : Fin 128) (hp : b * 10000 + p.val < 100000) :
    max (x0 (ix2 p q) + x1 (ix2 (0 : Fin 1) q)) (Ideal.ofBits .f32 0x00000000#32) = biasRelu A bias (ix2 ⟨b * 10000 + p.val, hp⟩ q) := by
  rw [biasRelu_ix2, h0 p q hp, h1 q]

/-! ## Region 1 -/

/-- The body's stored value at (p, q): the block's entry plus the bias row's entry q, clamped below at zero. -/
theorem pay_bias1 (x0 : Vec Ideal S10000x128 .f32) (x1 : Vec Ideal S1x128 .f32) (p : Fin 10000) (q : Fin 128) :
    k1_pay1 (F := Ideal) x0 x1 (ix2 p q) = max (x0 (ix2 p q) + x1 (ix2 (0 : Fin 1) q)) (Ideal.ofBits .f32 0x00000000#32) := by
  unfold k1_pay1
  simp only [shapeCast_self]
  exact congrArg (fun z => max (x0 (ix2 p q) + z) (Ideal.ofBits .f32 0x00000000#32))
    (broadcastTo_1b_ab_apply x1 broadcasts_S1x128_S10000x128 p q)

/-- The printed index maps over the ten points: the aggregate and the output sit at block row t, the bias row at its
    one block. -/
theorem idx_bias1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is rows 10000·t … of the layer's end of the arrays the region finds. -/
theorem flushed_bias1 (c : Dev nD) (t : Fin cfg1.N) :
    (dat1 V c).flushed 2 t = ((cfg1.win 2).blk t).view.read (Elt Ideal)
      (biasRelu (V c (Pipeline.arrRef spec1 0)) (V c (Pipeline.arrRef spec1 1))) := by
  show (cfg1.win 2).cut (grid1.coords t) ((dat1 V c).after 2 t) = _
  rw [after1_2]
  unfold out1_2
  rw [View.canon_unit_zero zero2]
  simp only [View.ld_unit_zero (S := S10000x128) zero2, View.ld_unit_zero (S := S1x128) zero2]
  obtain ⟨e00, e01, e10, e11, e20, e21⟩ := idx_bias1 t
  have ht : t.val < 10 := t.isLt
  funext j
  obtain ⟨p, q, rfl⟩ : ∃ (p : Fin 10000) (q : Fin 128), j = ix2 p q := ⟨j 0, j 1, eq_ix2 j⟩
  have hp : t.val * 10000 + p.val < 100000 := by have := p.isLt; omega
  show k1_pay1 (iblk1 V c 0 t) (iblk1 V c 1 t) (ix2 p q)
    = biasRelu (V c (Pipeline.arrRef spec1 0)) (V c (Pipeline.arrRef spec1 1)) (((cfg1.win 2).blk t).view.emb (ix2 p q))
  have hemb : ((cfg1.win 2).blk t).view.emb (ix2 p q) = ix2 (n0 := 100000) (n1 := 128) ⟨t.val * 10000 + p.val, hp⟩ q := by
    funext a; apply Fin.ext
    match a with
    | ⟨0, _⟩ => show win1_2.index t (0 : Fin 2) * 10000 + 1 * p.val = t.val * 10000 + p.val; omega
    | ⟨1, _⟩ => show win1_2.index t (1 : Fin 2) * 128 + 1 * q.val = q.val; omega
  rw [hemb]
  refine (pay_bias1 (iblk1 V c 0 t) (iblk1 V c 1 t) p q).trans ?_
  refine block_biasRelu (iblk1 V c 0 t) (iblk1 V c 1 t) _ _ t.val (fun p' q' hp' => ?_) (fun q' => ?_) p q hp
  · show V c (Pipeline.arrRef spec1 0) (((cfg1.win 0).blk t).view.emb (ix2 p' q')) = _
    refine congrArg _ (funext fun a => Fin.ext ?_)
    match a with
    | ⟨0, _⟩ => show win1_0.index t (0 : Fin 2) * 10000 + 1 * p'.val = t.val * 10000 + p'.val; omega
    | ⟨1, _⟩ => show win1_0.index t (1 : Fin 2) * 128 + 1 * q'.val = q'.val; omega
  · show V c (Pipeline.arrRef spec1 1) (((cfg1.win 1).blk t).view.emb (ix2 (0 : Fin 1) q')) = _
    refine congrArg _ (funext fun a => Fin.ext ?_)
    match a with
    | ⟨0, _⟩ => show win1_1.index t (0 : Fin 2) * 1 + 1 * 0 = 0; omega
    | ⟨1, _⟩ => show win1_1.index t (1 : Fin 2) * 128 + 1 * q'.val = q'.val; omega

/-- An index of the output array is in point t's block iff its row lies in that block's rows. -/
theorem mem_blk_bias1 (t : Fin cfg1.N) (i : S100000x128.Idx) :
    i ∈ ((cfg1.win 2).blk t).view.set ↔ ∀ a : Fin 2, win1_2.index t a * S10000x128.size a ≤ (i a).val ∧ (i a).val < win1_2.index t a * S10000x128.size a + S10000x128.size a := by
  show i ∈ ((View.whole main_v47).slice (win1_2.rect t)).set ↔ _
  rw [View.set_slice_whole, Rect.mem_set_unit]
  exact Iff.rfl

/-- THE OUTPUT ARRAY after the region: the layer's end of the two arrays the region finds. -/
theorem final_bias1 (c : Dev nD) :
    (dat1 V c).arrAt 2 cfg1.N = biasRelu (V c (Pipeline.arrRef spec1 0)) (V c (Pipeline.arrRef spec1 1)) := by
  refine (dat1 V c).arrAt_eq_of_cover 2 _ (fun t _ => flushed_bias1 V c t) fun i => ?_
  have hi0 : (i 0).val < 100000 := (i 0).isLt
  have hi1 : (i 1).val < 128 := (i 1).isLt
  have hN : (i 0).val / 10000 < cfg1.N := by show (i 0).val / 10000 < 10; omega
  refine ⟨⟨(i 0).val / 10000, hN⟩, flush1_2 _, ?_⟩
  rw [mem_blk_bias1]
  obtain ⟨e00, e01, e10, e11, e20, e21⟩ := idx_bias1 ⟨(i 0).val / 10000, hN⟩
  intro a
  match a with
  | ⟨0, _⟩ =>
    show win1_2.index ⟨(i 0).val / 10000, hN⟩ (0 : Fin 2) * 10000 ≤ (i 0).val ∧ (i 0).val < win1_2.index ⟨(i 0).val / 10000, hN⟩ (0 : Fin 2) * 10000 + 10000
    rw [e20]; show (i 0).val / 10000 * 10000 ≤ (i 0).val ∧ (i 0).val < (i 0).val / 10000 * 10000 + 10000; omega
  | ⟨1, _⟩ =>
    show win1_2.index ⟨(i 0).val / 10000, hN⟩ (1 : Fin 2) * 128 ≤ (i 1).val ∧ (i 1).val < win1_2.index ⟨(i 0).val / 10000, hN⟩ (1 : Fin 2) * 128 + 128
    rw [e21]; omega

/-! ## Region 3 -/

/-- The body's stored value at (p, q): the block's entry plus the bias row's entry q, clamped below at zero. -/
theorem pay_bias3 (x0 : Vec Ideal S10000x128 .f32) (x1 : Vec Ideal S1x128 .f32) (p : Fin 10000) (q : Fin 128) :
    k3_pay1 (F := Ideal) x0 x1 (ix2 p q) = max (x0 (ix2 p q) + x1 (ix2 (0 : Fin 1) q)) (Ideal.ofBits .f32 0x00000000#32) := by
  unfold k3_pay1
  simp only [shapeCast_self]
  exact congrArg (fun z => max (x0 (ix2 p q) + z) (Ideal.ofBits .f32 0x00000000#32))
    (broadcastTo_1b_ab_apply x1 broadcasts_S1x128_S10000x128 p q)

/-- The printed index maps over the ten points: the aggregate and the output sit at block row t, the bias row at its
    one block. -/
theorem idx_bias3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point t writes back is rows 10000·t … of the layer's end of the arrays the region finds. -/
theorem flushed_bias3 (c : Dev nD) (t : Fin cfg3.N) :
    (dat3 V c).flushed 2 t = ((cfg3.win 2).blk t).view.read (Elt Ideal)
      (biasRelu (V c (Pipeline.arrRef spec3 0)) (V c (Pipeline.arrRef spec3 1))) := by
  show (cfg3.win 2).cut (grid3.coords t) ((dat3 V c).after 2 t) = _
  rw [after3_2]
  unfold out3_2
  rw [View.canon_unit_zero zero2]
  simp only [View.ld_unit_zero (S := S10000x128) zero2, View.ld_unit_zero (S := S1x128) zero2]
  obtain ⟨e00, e01, e10, e11, e20, e21⟩ := idx_bias3 t
  have ht : t.val < 10 := t.isLt
  funext j
  obtain ⟨p, q, rfl⟩ : ∃ (p : Fin 10000) (q : Fin 128), j = ix2 p q := ⟨j 0, j 1, eq_ix2 j⟩
  have hp : t.val * 10000 + p.val < 100000 := by have := p.isLt; omega
  show k3_pay1 (iblk3 V c 0 t) (iblk3 V c 1 t) (ix2 p q)
    = biasRelu (V c (Pipeline.arrRef spec3 0)) (V c (Pipeline.arrRef spec3 1)) (((cfg3.win 2).blk t).view.emb (ix2 p q))
  have hemb : ((cfg3.win 2).blk t).view.emb (ix2 p q) = ix2 (n0 := 100000) (n1 := 128) ⟨t.val * 10000 + p.val, hp⟩ q := by
    funext a; apply Fin.ext
    match a with
    | ⟨0, _⟩ => show win3_2.index t (0 : Fin 2) * 10000 + 1 * p.val = t.val * 10000 + p.val; omega
    | ⟨1, _⟩ => show win3_2.index t (1 : Fin 2) * 128 + 1 * q.val = q.val; omega
  rw [hemb]
  refine (pay_bias3 (iblk3 V c 0 t) (iblk3 V c 1 t) p q).trans ?_
  refine block_biasRelu (iblk3 V c 0 t) (iblk3 V c 1 t) _ _ t.val (fun p' q' hp' => ?_) (fun q' => ?_) p q hp
  · show V c (Pipeline.arrRef spec3 0) (((cfg3.win 0).blk t).view.emb (ix2 p' q')) = _
    refine congrArg _ (funext fun a => Fin.ext ?_)
    match a with
    | ⟨0, _⟩ => show win3_0.index t (0 : Fin 2) * 10000 + 1 * p'.val = t.val * 10000 + p'.val; omega
    | ⟨1, _⟩ => show win3_0.index t (1 : Fin 2) * 128 + 1 * q'.val = q'.val; omega
  · show V c (Pipeline.arrRef spec3 1) (((cfg3.win 1).blk t).view.emb (ix2 (0 : Fin 1) q')) = _
    refine congrArg _ (funext fun a => Fin.ext ?_)
    match a with
    | ⟨0, _⟩ => show win3_1.index t (0 : Fin 2) * 1 + 1 * 0 = 0; omega
    | ⟨1, _⟩ => show win3_1.index t (1 : Fin 2) * 128 + 1 * q'.val = q'.val; omega

/-- An index of the output array is in point t's block iff its row lies in that block's rows. -/
theorem mem_blk_bias3 (t : Fin cfg3.N) (i : S100000x128.Idx) :
    i ∈ ((cfg3.win 2).blk t).view.set ↔ ∀ a : Fin 2, win3_2.index t a * S10000x128.size a ≤ (i a).val ∧ (i a).val < win3_2.index t a * S10000x128.size a + S10000x128.size a := by
  show i ∈ ((View.whole main_v62).slice (win3_2.rect t)).set ↔ _
  rw [View.set_slice_whole, Rect.mem_set_unit]
  exact Iff.rfl

/-- THE OUTPUT ARRAY after the region: the layer's end of the two arrays the region finds. -/
theorem final_bias3 (c : Dev nD) :
    (dat3 V c).arrAt 2 cfg3.N = biasRelu (V c (Pipeline.arrRef spec3 0)) (V c (Pipeline.arrRef spec3 1)) := by
  refine (dat3 V c).arrAt_eq_of_cover 2 _ (fun t _ => flushed_bias3 V c t) fun i => ?_
  have hi0 : (i 0).val < 100000 := (i 0).isLt
  have hi1 : (i 1).val < 128 := (i 1).isLt
  have hN : (i 0).val / 10000 < cfg3.N := by show (i 0).val / 10000 < 10; omega
  refine ⟨⟨(i 0).val / 10000, hN⟩, flush3_2 _, ?_⟩
  rw [mem_blk_bias3]
  obtain ⟨e00, e01, e10, e11, e20, e21⟩ := idx_bias3 ⟨(i 0).val / 10000, hN⟩
  intro a
  match a with
  | ⟨0, _⟩ =>
    show win3_2.index ⟨(i 0).val / 10000, hN⟩ (0 : Fin 2) * 10000 ≤ (i 0).val ∧ (i 0).val < win3_2.index ⟨(i 0).val / 10000, hN⟩ (0 : Fin 2) * 10000 + 10000
    rw [e20]; show (i 0).val / 10000 * 10000 ≤ (i 0).val ∧ (i 0).val < (i 0).val / 10000 * 10000 + 10000; omega
  | ⟨1, _⟩ =>
    show win3_2.index ⟨(i 0).val / 10000, hN⟩ (1 : Fin 2) * 128 ≤ (i 1).val ∧ (i 1).val < win3_2.index ⟨(i 0).val / 10000, hN⟩ (1 : Fin 2) * 128 + 128
    rw [e21]; omega

/-! ## Region 5 -/

/-- The body's stored value at (p, q): the block's entry plus the bias row's entry q, clamped below at zero. -/
theorem pay_bias5 (x0 : Vec Ideal S10000x128 .f32) (x1 : Vec Ideal S1x128 .f32) (p : Fin 10000) (q : Fin 128) :
    k5_pay1 (F := Ideal) x0 x1 (ix2 p q) = max (x0 (ix2 p q) + x1 (ix2 (0 : Fin 1) q)) (Ideal.ofBits .f32 0x00000000#32) := by
  unfold k5_pay1
  simp only [shapeCast_self]
  exact congrArg (fun z => max (x0 (ix2 p q) + z) (Ideal.ofBits .f32 0x00000000#32))
    (broadcastTo_1b_ab_apply x1 broadcasts_S1x128_S10000x128 p q)

/-- The printed index maps over the ten points: the aggregate and the output sit at block row t, the bias row at its
    one block. -/
theorem idx_bias5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- What point t writes back is rows 10000·t … of the layer's end of the arrays the region finds. -/
theorem flushed_bias5 (c : Dev nD) (t : Fin cfg5.N) :
    (dat5 V c).flushed 2 t = ((cfg5.win 2).blk t).view.read (Elt Ideal)
      (biasRelu (V c (Pipeline.arrRef spec5 0)) (V c (Pipeline.arrRef spec5 1))) := by
  show (cfg5.win 2).cut (grid5.coords t) ((dat5 V c).after 2 t) = _
  rw [after5_2]
  unfold out5_2
  rw [View.canon_unit_zero zero2]
  simp only [View.ld_unit_zero (S := S10000x128) zero2, View.ld_unit_zero (S := S1x128) zero2]
  obtain ⟨e00, e01, e10, e11, e20, e21⟩ := idx_bias5 t
  have ht : t.val < 10 := t.isLt
  funext j
  obtain ⟨p, q, rfl⟩ : ∃ (p : Fin 10000) (q : Fin 128), j = ix2 p q := ⟨j 0, j 1, eq_ix2 j⟩
  have hp : t.val * 10000 + p.val < 100000 := by have := p.isLt; omega
  show k5_pay1 (iblk5 V c 0 t) (iblk5 V c 1 t) (ix2 p q)
    = biasRelu (V c (Pipeline.arrRef spec5 0)) (V c (Pipeline.arrRef spec5 1)) (((cfg5.win 2).blk t).view.emb (ix2 p q))
  have hemb : ((cfg5.win 2).blk t).view.emb (ix2 p q) = ix2 (n0 := 100000) (n1 := 128) ⟨t.val * 10000 + p.val, hp⟩ q := by
    funext a; apply Fin.ext
    match a with
    | ⟨0, _⟩ => show win5_2.index t (0 : Fin 2) * 10000 + 1 * p.val = t.val * 10000 + p.val; omega
    | ⟨1, _⟩ => show win5_2.index t (1 : Fin 2) * 128 + 1 * q.val = q.val; omega
  rw [hemb]
  refine (pay_bias5 (iblk5 V c 0 t) (iblk5 V c 1 t) p q).trans ?_
  refine block_biasRelu (iblk5 V c 0 t) (iblk5 V c 1 t) _ _ t.val (fun p' q' hp' => ?_) (fun q' => ?_) p q hp
  · show V c (Pipeline.arrRef spec5 0) (((cfg5.win 0).blk t).view.emb (ix2 p' q')) = _
    refine congrArg _ (funext fun a => Fin.ext ?_)
    match a with
    | ⟨0, _⟩ => show win5_0.index t (0 : Fin 2) * 10000 + 1 * p'.val = t.val * 10000 + p'.val; omega
    | ⟨1, _⟩ => show win5_0.index t (1 : Fin 2) * 128 + 1 * q'.val = q'.val; omega
  · show V c (Pipeline.arrRef spec5 1) (((cfg5.win 1).blk t).view.emb (ix2 (0 : Fin 1) q')) = _
    refine congrArg _ (funext fun a => Fin.ext ?_)
    match a with
    | ⟨0, _⟩ => show win5_1.index t (0 : Fin 2) * 1 + 1 * 0 = 0; omega
    | ⟨1, _⟩ => show win5_1.index t (1 : Fin 2) * 128 + 1 * q'.val = q'.val; omega

/-- An index of the output array is in point t's block iff its row lies in that block's rows. -/
theorem mem_blk_bias5 (t : Fin cfg5.N) (i : S100000x128.Idx) :
    i ∈ ((cfg5.win 2).blk t).view.set ↔ ∀ a : Fin 2, win5_2.index t a * S10000x128.size a ≤ (i a).val ∧ (i a).val < win5_2.index t a * S10000x128.size a + S10000x128.size a := by
  show i ∈ ((View.whole main_v77).slice (win5_2.rect t)).set ↔ _
  rw [View.set_slice_whole, Rect.mem_set_unit]
  exact Iff.rfl

/-- THE OUTPUT ARRAY after the region: the layer's end of the two arrays the region finds. -/
theorem final_bias5 (c : Dev nD) :
    (dat5 V c).arrAt 2 cfg5.N = biasRelu (V c (Pipeline.arrRef spec5 0)) (V c (Pipeline.arrRef spec5 1)) := by
  refine (dat5 V c).arrAt_eq_of_cover 2 _ (fun t _ => flushed_bias5 V c t) fun i => ?_
  have hi0 : (i 0).val < 100000 := (i 0).isLt
  have hi1 : (i 1).val < 128 := (i 1).isLt
  have hN : (i 0).val / 10000 < cfg5.N := by show (i 0).val / 10000 < 10; omega
  refine ⟨⟨(i 0).val / 10000, hN⟩, flush5_2 _, ?_⟩
  rw [mem_blk_bias5]
  obtain ⟨e00, e01, e10, e11, e20, e21⟩ := idx_bias5 ⟨(i 0).val / 10000, hN⟩
  intro a
  match a with
  | ⟨0, _⟩ =>
    show win5_2.index ⟨(i 0).val / 10000, hN⟩ (0 : Fin 2) * 10000 ≤ (i 0).val ∧ (i 0).val < win5_2.index ⟨(i 0).val / 10000, hN⟩ (0 : Fin 2) * 10000 + 10000
    rw [e20]; show (i 0).val / 10000 * 10000 ≤ (i 0).val ∧ (i 0).val < (i 0).val / 10000 * 10000 + 10000; omega
  | ⟨1, _⟩ =>
    show win5_2.index ⟨(i 0).val / 10000, hN⟩ (1 : Fin 2) * 128 ≤ (i 1).val ∧ (i 1).val < win5_2.index ⟨(i 0).val / 10000, hN⟩ (1 : Fin 2) * 128 + 128
    rw [e21]; omega

end Cert.KernelIdeal.Whole

end
-- ==== Proof.RefLayers.lean ====
/-
  The reference's layers, stage by stage, as the layer functions.

  The reference computes each layer on the host: a `dot_general` contracting the features' second axis with the
  weights' first, the aggregation, then the bias broadcast to every row, an addition and a `maximum` with zero.  On the
  extended reals the `dot_general` is the row-by-column sum `rowsTimes`, and bias, addition and maximum together are
  `biasRelu` of the aggregate and the bias viewed as one row (a broadcast of a length-128 vector along a new leading
  unit axis reads the same entries as a reshape to [1, 128]).
-/
import proofs.«137676_j64493228916895_1_alg».proof.Proof.Gen.ReferenceIdeal.Read
import proofs.«137676_j64493228916895_1_alg».proof.Proof.LayerSpec
import Idealize.ShloMosaic.Lib.ValueLayout

set_option maxRecDepth 16384

noncomputable section

namespace Cert.ReferenceIdeal.Layers

open Idealize.ShloMosaic Idealize.ShloMosaic.ValueIdx
open Cert.ReferenceIdeal Cert.ReferenceIdeal.Read Cert.Gcn

/-- The host's product of features and weights is the row-by-column sum. -/
theorem dense_eq (X : FVec Ideal S100000x128 .f32) (W : FVec Ideal S128x128 .f32) :
    val_main_v9 (F := Ideal) X W = rowsTimes X W := by
  funext i
  rw [val_main_v9_apply]
  unfold rowsTimes
  refine Finset.sum_congr rfl fun k _ => ?_
  have el : lidx_main_v9 i k = ix2 (n0 := 100000) (n1 := 128) ⟨(i 0).val, idx2_lt0 i⟩ k :=
    funext fun a => Fin.ext (by match a with | ⟨0, _⟩ => rfl | ⟨1, _⟩ => rfl)
  have er : ridx_main_v9 i k = ix2 (n0 := 128) (n1 := 128) k ⟨(i 1).val, idx2_lt1 i⟩ :=
    funext fun a => Fin.ext (by match a with | ⟨0, _⟩ => rfl | ⟨1, _⟩ => rfl)
  rw [el, er]

/-- The bias broadcast to every row reads, at (r, j), the bias at j. -/
theorem bias_rows_apply (b : FVec Ideal S128 .f32) (r : Fin 100000) (j : Fin 128) :
    val_main_v47 (F := Ideal) b (ix2 r j) = b (ix1 j) := by
  rw [val_main_v47_apply, val_main_v46_apply]
  exact congrArg b (funext fun a => Fin.ext (by match a with | ⟨0, _⟩ => rfl))

/-- Bias, addition and maximum with zero are the layer's end of the aggregate and the bias as one row. -/
theorem layerEnd_eq (A : FVec Ideal S100000x128 .f32) (b : FVec Ideal S128 .f32) (h : S128.ShapeCasts S1x128) :
    maximumf (addf A (val_main_v47 (F := Ideal) b)) (val_main_call1_v0 (F := Ideal)) = biasRelu A (shapeCast S1x128 b h) := by
  funext i
  obtain ⟨r, j, rfl⟩ : ∃ (r : Fin 100000) (j : Fin 128), i = ix2 r j := ⟨i 0, i 1, eq_ix2 i⟩
  rw [biasRelu_ix2, shapeCast_a_1a_apply]
  show max (A (ix2 r j) + val_main_v47 (F := Ideal) b (ix2 r j)) (val_main_call1_v0 (F := Ideal) (ix2 r j)) = _
  rw [bias_rows_apply, val_main_call1_v0_apply]
  rfl

/-! ## The reference's stages, layer by layer -/

set_option backward.isDefEq.respectTransparency.types false in
/-- Layer 1 ends at the layer's end of its aggregate and the first bias. -/
theorem layer1_end (x0 : FVec Ideal S100000x128 .f32) (x1 : (⟨S2x1600000, .i32⟩ : BufTy).Contents (Elt Ideal)) (x2 : FVec Ideal S1600000 .f32) (x3 : FVec Ideal S128x128 .f32) (x4 : FVec Ideal S128 .f32) (h : S128.ShapeCasts S1x128) :
    val_main_v49 (F := Ideal) x0 x1 x2 x3 x4 = biasRelu (val_main_v45 (F := Ideal) x0 x1 x2 x3) (shapeCast S1x128 x4 h) :=
  by
  rw [← layerEnd_eq (val_main_v45 (F := Ideal) x0 x1 x2 x3) x4 h]
  unfold val_main_v49 val_main_v48
  generalize val_main_v45 (F := Ideal) x0 x1 x2 x3 = A
  rfl

set_option backward.isDefEq.respectTransparency.types false in
/-- Layer 2's product is the row-by-column product of layer 1's output and the second weights. -/
theorem layer2_dense (x0 : FVec Ideal S100000x128 .f32) (x1 : (⟨S2x1600000, .i32⟩ : BufTy).Contents (Elt Ideal)) (x2 : FVec Ideal S1600000 .f32) (x3 : FVec Ideal S128x128 .f32) (x4 : FVec Ideal S128 .f32) (x5 : FVec Ideal S128x128 .f32) :
    val_main_v50 (F := Ideal) x0 x1 x2 x3 x4 x5 = rowsTimes (val_main_v49 (F := Ideal) x0 x1 x2 x3 x4) x5 :=
  (show val_main_v50 (F := Ideal) x0 x1 x2 x3 x4 x5 = val_main_v9 (F := Ideal) (val_main_v49 (F := Ideal) x0 x1 x2 x3 x4) x5 from rfl).trans
    (dense_eq (val_main_v49 (F := Ideal) x0 x1 x2 x3 x4) x5)

set_option backward.isDefEq.respectTransparency.types false in
/-- Layer 2 ends at the layer's end of its aggregate and the second bias. -/
theorem layer2_end (x0 : FVec Ideal S100000x128 .f32) (x1 : (⟨S2x1600000, .i32⟩ : BufTy).Contents (Elt Ideal)) (x2 : FVec Ideal S1600000 .f32) (x3 : FVec Ideal S128x128 .f32) (x4 : FVec Ideal S128 .f32) (x5 : FVec Ideal S128x128 .f32) (x6 : FVec Ideal S128 .f32) (h : S128.ShapeCasts S1x128) :
    val_main_v90 (F := Ideal) x0 x1 x2 x3 x4 x5 x6 = biasRelu (val_main_v86 (F := Ideal) x0 x1 x2 x3 x4 x5) (shapeCast S1x128 x6 h) :=
  by
  rw [← layerEnd_eq (val_main_v86 (F := Ideal) x0 x1 x2 x3 x4 x5) x6 h]
  unfold val_main_v90 val_main_v89
  generalize val_main_v86 (F := Ideal) x0 x1 x2 x3 x4 x5 = A
  rfl

set_option backward.isDefEq.respectTransparency.types false in
/-- Layer 3's product is the row-by-column product of layer 2's output and the third weights. -/
theorem layer3_dense (x0 : FVec Ideal S100000x128 .f32) (x1 : (⟨S2x1600000, .i32⟩ : BufTy).Contents (Elt Ideal)) (x2 : FVec Ideal S1600000 .f32) (x3 : FVec Ideal S128x128 .f32) (x4 : FVec Ideal S128 .f32) (x5 : FVec Ideal S128x128 .f32) (x6 : FVec Ideal S128 .f32) (x7 : FVec Ideal S128x128 .f32) :
    val_main_v91 (F := Ideal) x0 x1 x2 x3 x4 x5 x6 x7 = rowsTimes (val_main_v90 (F := Ideal) x0 x1 x2 x3 x4 x5 x6) x7 :=
  (show val_main_v91 (F := Ideal) x0 x1 x2 x3 x4 x5 x6 x7 = val_main_v9 (F := Ideal) (val_main_v90 (F := Ideal) x0 x1 x2 x3 x4 x5 x6) x7 from rfl).trans
    (dense_eq (val_main_v90 (F := Ideal) x0 x1 x2 x3 x4 x5 x6) x7)

set_option backward.isDefEq.respectTransparency.types false in
/-- Layer 3, the result, ends at the layer's end of its aggregate and the third bias. -/
theorem layer3_end (x0 : FVec Ideal S100000x128 .f32) (x1 : (⟨S2x1600000, .i32⟩ : BufTy).Contents (Elt Ideal)) (x2 : FVec Ideal S1600000 .f32) (x3 : FVec Ideal S128x128 .f32) (x4 : FVec Ideal S128 .f32) (x5 : FVec Ideal S128x128 .f32) (x6 : FVec Ideal S128 .f32) (x7 : FVec Ideal S128x128 .f32) (x8 : FVec Ideal S128 .f32) (h : S128.ShapeCasts S1x128) :
    val_main_v131 (F := Ideal) x0 x1 x2 x3 x4 x5 x6 x7 x8 = biasRelu (val_main_v127 (F := Ideal) x0 x1 x2 x3 x4 x5 x6 x7) (shapeCast S1x128 x8 h) :=
  by
  rw [← layerEnd_eq (val_main_v127 (F := Ideal) x0 x1 x2 x3 x4 x5 x6 x7) x8 h]
  unfold val_main_v131 val_main_v130
  generalize val_main_v127 (F := Ideal) x0 x1 x2 x3 x4 x5 x6 x7 = A
  rfl

end Cert.ReferenceIdeal.Layers

end
-- ==== Proof.KernelValue.lean ====
/-
  The idealized kernel's result is the reference's result of the same arguments.

  Layer by layer, through the boundary contents of @main's segments.  A dense region leaves the row-by-column product
  of the array it finds and its weights; the reference's product stage is that same sum.  The host stretch after it
  aggregates the product's rows over the graph exactly as the reference does, from graph data both computed alike.  A
  closing region leaves max (aggregate + bias row, 0); the reference's add-and-maximum stage is that same function.
  So after each region the kernel's output array holds the reference's stage of the same number, and after the sixth
  it holds the reference's result.
-/
import proofs.«137676_j64493228916895_1_alg».proof.Proof.Carried
import proofs.«137676_j64493228916895_1_alg».proof.Proof.Stretches
import proofs.«137676_j64493228916895_1_alg».proof.Proof.RegionDense
import proofs.«137676_j64493228916895_1_alg».proof.Proof.RegionBias
import proofs.«137676_j64493228916895_1_alg».proof.Proof.RefLayers

set_option maxRecDepth 16384

noncomputable section

namespace Cert.KernelIdeal.Whole

open Idealize.ShloMosaic Idealize.ShloMosaic.TcCoe Idealize.SL.Sem
open Cert.KernelIdeal Cert.KernelIdeal.Gen Cert.Gcn
open Cert.ReferenceIdeal.Read (val_main_v9 val_main_v45 val_main_v49 val_main_v50 val_main_v86 val_main_v90 val_main_v91 val_main_v127 val_main_v131)
open Cert.ReferenceIdeal.Layers (dense_eq layer1_end layer2_dense layer2_end layer3_dense layer3_end)

variable (m : (ℓ : Loc nD τ sig) → Buf (Elt Ideal) ℓ) (ρ : Dev nD → PrngReg) (c : Dev nD)

/-! ## Layer 1 -/

/-- Region 0 leaves the product of the features and the first weights: the reference's first product. -/
theorem layer1_product : W4 m ρ c (Proc.devRef .tc main_v33) = val_main_v9 (F := Ideal) (m ((c : Thread nD τ).loc main_arg0)) (m ((c : Thread nD τ).loc main_arg3)) :=
  (W4_arr m ρ c 2).trans ((final_dense0 (V3 m ρ) c).trans
    ((congrArg₂ rowsTimes (entry0_arg0 m ρ c) (entry0_arg3 m ρ c)).trans (dense_eq (m ((c : Thread nD τ).loc main_arg0)) (m ((c : Thread nD τ).loc main_arg3))).symm))

/-- The stretch after region 0 leaves the reference's first aggregate. -/
theorem layer1_aggregate : W5 m ρ c (Proc.devRef .tc main_v45) = val_main_v45 (F := Ideal) (m ((c : Thread nD τ).loc main_arg0)) (m ((c : Thread nD τ).loc main_arg1)) (m ((c : Thread nD τ).loc main_arg2)) (m ((c : Thread nD τ).loc main_arg3)) :=
  agg1 (W4 m ρ c) (m ((c : Thread nD τ).loc main_arg0)) (m ((c : Thread nD τ).loc main_arg1)) (m ((c : Thread nD τ).loc main_arg2)) (m ((c : Thread nD τ).loc main_arg3)) (layer1_product m ρ c)
    ((at4_v3 m ρ c).trans (graph_src m ρ c)) ((at4_v6 m ρ c).trans (graph_dst m ρ c)) ((at4_v32 m ρ c).trans (graph_norm m ρ c))

/-- and the first bias as one row. -/
theorem layer1_biasRow : W5 m ρ c (Proc.devRef .tc main_v46) = shapeCast S1x128 (m ((c : Thread nD τ).loc main_arg4)) shapeCasts_S128_S1x128 :=
  (biasRow1 (W4 m ρ c)).trans
    (congrArg (fun z => shapeCast S1x128 z shapeCasts_S128_S1x128) ((at4_arg4 m ρ c).trans (entry0_arg4 m ρ c)))

/-- Region 1 leaves the reference's first layer. -/
theorem layer1_out : W6 m ρ c (Proc.devRef .tc main_v47) = val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (W6_arr m ρ c 2).trans ((final_bias1 (V5 m ρ) c).trans
    ((congrArg₂ biasRelu (layer1_aggregate m ρ c) (layer1_biasRow m ρ c)).trans
      (layer1_end (m ((c : Thread nD τ).loc main_arg0)) (m ((c : Thread nD τ).loc main_arg1)) (m ((c : Thread nD τ).loc main_arg2)) (m ((c : Thread nD τ).loc main_arg3)) (m ((c : Thread nD τ).loc main_arg4)) shapeCasts_S128_S1x128).symm))

/-! ## Layer 2 -/

/-- Region 2 leaves the product of the first layer and the second weights: the reference's second product. -/
theorem layer2_product : W7 m ρ c (Proc.devRef .tc main_v48) = val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W7_arr m ρ c 2).trans ((final_dense2 (V6 m ρ) c).trans
    ((congrArg₂ rowsTimes (layer1_out m ρ c) ((at6_arg5 m ρ c).trans (entry0_arg5 m ρ c))).trans
      (layer2_dense (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))).symm))

/-- The stretch after region 2 leaves the reference's second aggregate. -/
theorem layer2_aggregate : W8 m ρ c (Proc.devRef .tc main_v60) = val_main_v86 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  agg2 (W7 m ρ c) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (layer2_product m ρ c)
    ((at7_v3 m ρ c).trans (graph_src m ρ c)) ((at7_v6 m ρ c).trans (graph_dst m ρ c)) ((at7_v32 m ρ c).trans (graph_norm m ρ c))

/-- and the second bias as one row. -/
theorem layer2_biasRow : W8 m ρ c (Proc.devRef .tc main_v61) = shapeCast S1x128 (m ((c : Thread nD τ).loc main_arg6)) shapeCasts_S128_S1x128 :=
  (biasRow2 (W7 m ρ c)).trans
    (congrArg (fun z => shapeCast S1x128 z shapeCasts_S128_S1x128) ((at7_arg6 m ρ c).trans (entry0_arg6 m ρ c)))

/-- Region 3 leaves the reference's second layer. -/
theorem layer2_out : W9 m ρ c (Proc.devRef .tc main_v62) = val_main_v90 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (W9_arr m ρ c 2).trans ((final_bias3 (V8 m ρ) c).trans
    ((congrArg₂ biasRelu (layer2_aggregate m ρ c) (layer2_biasRow m ρ c)).trans
      (layer2_end (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) shapeCasts_S128_S1x128).symm))

/-! ## Layer 3 -/

/-- Region 4 leaves the product of the second layer and the third weights: the reference's third product. -/
theorem layer3_product : W10 m ρ c (Proc.devRef .tc main_v63) = val_main_v91 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (W10_arr m ρ c 2).trans ((final_dense4 (V9 m ρ) c).trans
    ((congrArg₂ rowsTimes (layer2_out m ρ c) ((at9_arg7 m ρ c).trans (entry0_arg7 m ρ c))).trans
      (layer3_dense (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))).symm))

/-- The stretch after region 4 leaves the reference's third aggregate. -/
theorem layer3_aggregate : W11 m ρ c (Proc.devRef .tc main_v75) = val_main_v127 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  agg3 (W10 m ρ c) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (layer3_product m ρ c)
    ((at10_v3 m ρ c).trans (graph_src m ρ c)) ((at10_v6 m ρ c).trans (graph_dst m ρ c)) ((at10_v32 m ρ c).trans (graph_norm m ρ c))

/-- and the third bias as one row. -/
theorem layer3_biasRow : W11 m ρ c (Proc.devRef .tc main_v76) = shapeCast S1x128 (m ((c : Thread nD τ).loc main_arg8)) shapeCasts_S128_S1x128 :=
  (biasRow3 (W10 m ρ c)).trans
    (congrArg (fun z => shapeCast S1x128 z shapeCasts_S128_S1x128) ((at10_arg8 m ρ c).trans (entry0_arg8 m ρ c)))

/-- THE RESULT: region 5 leaves, in the result buffer, the reference's result of the nine arguments. -/
theorem result_value : W12 m ρ c (Proc.devRef .tc main_v77) = val_main_v131 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (W12_arr m ρ c 2).trans ((final_bias5 (V11 m ρ) c).trans
    ((congrArg₂ biasRelu (layer3_aggregate m ρ c) (layer3_biasRow m ρ c)).trans
      (layer3_end (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) shapeCasts_S128_S1x128).symm))

end Cert.KernelIdeal.Whole

end
-- ==== Proof.lean ====
/-
  Three graph-convolution layers: the tiled kernel against the plain reference, on the extended reals.

  Each layer is h = X·W, an edge-weighted aggregation of h's rows over the graph with self loops and symmetric
  degree normalisation, then max (aggregate + bias, 0).  The kernel computes X·W and the closing max (· + bias, 0) in
  pipelined regions of ten blocks of 10000 rows, and the normalisation once; the reference computes everything on the
  host and the normalisation once per layer.  With exact arithmetic the two agree entry by entry, and no law beyond
  "a block of rows of a row-wise function is that function at those rows" is needed: both sides apply the same
  operations in the same order, so the inputs need not even be finite.

  The three frame claims are the generated frame certificates (the reference's, its generated run with the result
  dropped).  The ideal pass rewrote nothing, so `preserves` is trivial.  For `algebraic`, the kernel's run ends with the
  result buffer at the last segment boundary's contents (`run_last`), which are the reference's result stage of the
  arguments (`result_value`); the reference's generated run ends at the same stage of its own arguments, which agree.
-/
import proofs.«137676_j64493228916895_1_alg».proof.Defs
import proofs.«137676_j64493228916895_1_alg».proof.Proof.Gen.Kernel
import proofs.«137676_j64493228916895_1_alg».proof.Proof.Gen.Kernel.Frame
import proofs.«137676_j64493228916895_1_alg».proof.Proof.Gen.KernelIdeal
import proofs.«137676_j64493228916895_1_alg».proof.Proof.Gen.KernelIdeal.Frame
import proofs.«137676_j64493228916895_1_alg».proof.Proof.Gen.ReferenceIdeal
import proofs.«137676_j64493228916895_1_alg».proof.Proof.Gen.ReferenceIdeal.Run
import proofs.«137676_j64493228916895_1_alg».proof.Proof.Gen.ReferenceIdeal.Read
import proofs.«137676_j64493228916895_1_alg».proof.Proof.Gen.Pre_finite_inputs
import proofs.«137676_j64493228916895_1_alg».proof.Proof.KernelRun
import proofs.«137676_j64493228916895_1_alg».proof.Proof.KernelValue
import Idealize.ShloMosaic.Adequacy
import Idealize.ShloMosaic.Init

set_option maxRecDepth 16384

noncomputable section

namespace Cert.Proof

open Idealize.ShloMosaic Idealize.SL.Sem

/-- The kernel as printed runs and keeps its arguments. -/
theorem frame_k : Cert.frame_Kernel := fun m ρ _ => Cert.Kernel.Gen.frame m ρ

/-- The idealized kernel runs and keeps its arguments. -/
theorem frame_ki : Cert.frame_KernelIdeal := fun m ρ _ => Cert.KernelIdeal.Gen.frame m ρ

/-- The idealized reference runs and keeps its arguments: its generated run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

set_option backward.isDefEq.respectTransparency.types false in
/-- From memories agreeing on the nine arguments both idealized programs end with the same result: the reference's
    result stage of the arguments. -/
theorem algebraic : Cert.algebraic_KernelIdeal_ReferenceIdeal := by
  intro m ρ m' ρ' _ hagree
  refine ⟨fun c => Cert.ReferenceIdeal.Read.val_main_v131 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono (fun r h c => ⟨(h c).1.trans (Cert.KernelIdeal.Whole.result_value m ρ c), (h c).2⟩)
      (Cert.KernelIdeal.Whole.run_last m ρ)
  · refine (θ_run Cert.ReferenceIdeal.defs _ _).mono (fun _ h c => ⟨(h c).1.trans ?_, (h c).2⟩) (Cert.ReferenceIdeal.Value.run (F := Ideal) m' ρ')
    obtain ⟨a0, a1, a2, a3, a4, a5, a6, a7, a8⟩ := hagree c
    rw [Cert.ReferenceIdeal.Read.val_main_v131_eq, a0, a1, a2, a3, a4, a5, a6, a7, a8]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
